-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S64x64 : Shape := ⟨2, ![64, 64]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S448x256 : Shape := ⟨2, ![448, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S448x256 : S_.BroadcastsInDim S448x256 (![] : Fin 0 → Fin S448x256.rank)
  reducesTo_S448x256_S_d0_1 : S448x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S256 .f32) (main_arg10 : FVec F S256x128 .f32) (main_arg11 : FVec F S128 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S448x256 .f32) (main_arg9 : FVec F S256 .f32) (main_arg10 : FVec F S256x128 .f32) (main_arg11 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S448x256 .f32 := Host.absf main_arg8
  let main_cst_10 : FVec F S_ .f32 := constant S_ .f32 0x7F800000#32
  let main_v30 : FVec F S448x256 .f32 := broadcastInDim S448x256 ![] bcast_S_S448x256 main_cst_10
  let main_v31 : IVec S448x256 1 := cmpf .olt main_v29 main_v30
  let main_c_11 : IVec S_ 1 := constantI S_ 1 1#1
  let main_v32 : IVec S_ 1 := (fun x v => Host.reduce IntOp.andi x v reducesTo_S448x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : FVec F S64x64 .f32) (main_arg3 : IVec S50000 32) (main_arg4 : FVec F S128x256 .f32) (main_arg5 : FVec F S256 .f32) (main_arg6 : FVec F S256x256 .f32) (main_arg7 : FVec F S256 .f32) (main_arg8 : FVec F S448x256 .f32) (main_arg9 : FVec F S256 .f32) (main_arg10 : FVec F S256x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S64x64 : Shape := ⟨2, ![64, 64]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S448x256 : Shape := ⟨2, ![448, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S5000x128 : Shape := ⟨2, ![5000, 128]⟩
abbrev S5000x256 : Shape := ⟨2, ![5000, 256]⟩
abbrev S1x256 : Shape := ⟨2, ![1, 256]⟩
abbrev S50000x256 : Shape := ⟨2, ![50000, 256]⟩
abbrev S50000x1 : Shape := ⟨2, ![50000, 1]⟩
abbrev S50000x64 : Shape := ⟨2, ![50000, 64]⟩
abbrev S50000x448 : Shape := ⟨2, ![50000, 448]⟩
abbrev S2000x448 : Shape := ⟨2, ![2000, 448]⟩
abbrev S2000x128 : Shape := ⟨2, ![2000, 128]⟩
abbrev S2000x256 : Shape := ⟨2, ![2000, 256]⟩
abbrev S1x128 : Shape := ⟨2, ![1, 128]⟩

abbrev nBuf : Space → Nat
  | .hbm => 53
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x64, .f32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S448x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S50000, .i32⟩
  | .hbm, ⟨44, _⟩ => ⟨S50000, .i1⟩
  | .hbm, ⟨45, _⟩ => ⟨S_, .i32⟩
  | .hbm, ⟨46, _⟩ => ⟨S50000, .i32⟩
  | .hbm, ⟨47, _⟩ => ⟨S50000, .i32⟩
  | .hbm, ⟨48, _⟩ => ⟨S50000, .i32⟩
  | .hbm, ⟨49, _⟩ => ⟨S50000x1, .i32⟩
  | .hbm, ⟨50, _⟩ => ⟨S50000x64, .f32⟩
  | .hbm, ⟨51, _⟩ => ⟨S50000x448, .f32⟩
  | .hbm, ⟨52, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S5000x256, .f32⟩
  | .local _ .vmem, ⟨7, _⟩ => ⟨S5000x256, .f32⟩
  | .local _ .vmem, ⟨8, _⟩ => ⟨S2000x448, .f32⟩
  | .local _ .vmem, ⟨9, _⟩ => ⟨S2000x448, .f32⟩
  | .local _ .vmem, ⟨10, _⟩ => ⟨S448x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x448 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S448x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x128_S50000x256_S50000x64_S50000x448_d1 : Shape.Concatenates [S50000x128, S50000x256, S50000x64] S50000x448 1
  inb_S2000x448_S2000x448_0_0 : ∀ a, (![0, 0] : Fin 2 → Nat) a + S2000x448.size a ≤ S2000x448.size a
  h_S2000x448 : 0 < S2000x448.numel
  shapeCasts_S2000x448_S2000x448 : S2000x448.ShapeCasts S2000x448
  inb_S448x256_S448x256_0_0 : ∀ a, (![0, 0] : Fin 2 → Nat) a + S448x256.size a ≤ S448x256.size a
  h_S448x256 : 0 < S448x256.numel
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  gather_S50000x128_S800000x1_S800000x128_1_0_n_n_0_1_1128_wf : GatherDims.WF S50000x128 S800000x1 S800000x128 [1] [0] [] [0] [] 1 ![1, 128]
  dot_S5000x128_S128x256_S5000x256_1_0_0_1_n_n_wf : DotDims.WF S5000x128 S128x256 S5000x256 [1] [0] [0] [1] [] []
  dot_S5000x256_S256x256_S5000x256_1_0_0_1_n_n_wf : DotDims.WF S5000x256 S256x256 S5000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  gather_S64x64_S50000x1_S50000x64_1_0_n_n_0_1_164_wf : GatherDims.WF S64x64 S50000x1 S50000x64 [1] [0] [] [0] [] 1 ![1, 64]
  dot_S2000x448_S448x256_S2000x256_1_0_0_1_n_n_wf : DotDims.WF S2000x448 S448x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S800000x128.size a
  hwx0_0 : ∀ i : grid0.Coords, EltTy.bits .f32 = 32 ∨ (Rect.block (s := S800000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S800000x256.size a
  hwx0_5 : ∀ i : grid0.Coords, EltTy.bits .f32 = 32 ∨ (Rect.block (s := S800000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x448.size a ≤ S50000x448.size a
  hwx1_0 : ∀ i : grid1.Coords, EltTy.bits .f32 = 32 ∨ (Rect.block (s := S50000x448) S2000x448.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S448x256.size a ≤ S448x256.size a
  hwx1_1 : ∀ i : grid1.Coords, EltTy.bits .f32 = 32 ∨ (Rect.block (s := S448x256) S448x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S2000x448_S448x256_S2000x256_1_0_0_1_n_n : DotDims S2000x448 S448x256 S2000x256 where
  lhsContracting := [1]
  rhsContracting := [0]
  lhsNonContracting := [0]
  rhsNonContracting := [1]
  lhsBatch := []
  rhsBatch := []
  wf := dot_S2000x448_S448x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v10) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S2000x448.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S448x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S64x64 : Shape := ⟨2, ![64, 64]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S448x256 : Shape := ⟨2, ![448, 256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x256 : Shape := ⟨2, ![1, 256]⟩
abbrev S50000x256 : Shape := ⟨2, ![50000, 256]⟩
abbrev S50000x1 : Shape := ⟨2, ![50000, 1]⟩
abbrev S50000x64 : Shape := ⟨2, ![50000, 64]⟩
abbrev S50000x448 : Shape := ⟨2, ![50000, 448]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S64x64, .f32⟩
  | .hbm, ⟨3, _⟩ => ⟨S50000, .i32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S448x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x256, .f32⟩
  | .hbm, ⟨26, _⟩ => ⟨S1x256, .f32⟩
  | .hbm, ⟨27, _⟩ => ⟨S800000x256, .f32⟩
  | .hbm, ⟨28, _⟩ => ⟨S800000x256, .f32⟩
  | .hbm, ⟨29, _⟩ => ⟨S_, .f32⟩
  | .hbm, ⟨30, _⟩ => ⟨S800000x256, .f32⟩
  | .hbm, ⟨31, _⟩ => ⟨S800000x256, .f32⟩
  | .hbm, ⟨32, _⟩ => ⟨S800000x256, .f32⟩
  | .hbm, ⟨33, _⟩ => ⟨S1x256, .f32⟩
  | .hbm, ⟨34, _⟩ => ⟨S800000x256, .f32⟩
  | .hbm, ⟨35, _⟩ => ⟨S800000x256, .f32⟩
  | .hbm, ⟨36, _⟩ => ⟨S_, .f32⟩
  | .hbm, ⟨37, _⟩ => ⟨S50000x256, .f32⟩
  | .hbm, ⟨38, _⟩ => ⟨S800000x1, .i32⟩
  | .hbm, ⟨39, _⟩ => ⟨S50000x256, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S50000x1, .f32⟩
  | .hbm, ⟨50, _⟩ => ⟨S50000x256, .f32⟩
  | .hbm, ⟨51, _⟩ => ⟨S50000x256, .f32⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S50000x64, .f32⟩
  | .hbm, ⟨61, _⟩ => ⟨S50000x448, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call1_cst : Ref sig .tc := ⟨.hbm, 66, rfl⟩
abbrev main_call1_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  concatenates_S50000x128_S50000x256_S50000x64_S50000x448_d1 : Shape.Concatenates [S50000x128, S50000x256, S50000x64] S50000x448 1
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x128_S128x256_S800000x256_1_0_0_1_n_n_wf : DotDims.WF S800000x128 S128x256 S800000x256 [1] [0] [0] [1] [] []
  dot_S800000x256_S256x256_S800000x256_1_0_0_1_n_n_wf : DotDims.WF S800000x256 S256x256 S800000x256 [1] [0] [0] [1] [] []
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  gather_S64x64_S50000x1_S50000x64_1_0_n_n_0_1_164_wf : GatherDims.WF S64x64 S50000x1 S50000x64 [1] [0] [] [0] [] 1 ![1, 64]
  dot_S50000x448_S448x256_S50000x256_1_0_0_1_n_n_wf : DotDims.WF S50000x448 S448x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x448_S448x256_S50000x256_1_0_0_1_n_n : DotDims S50000x448 S448x256 S50000x256 where
  lhsContracting := [1]
  rhsContracting := [0]
  lhsNonContracting := [0]
  rhsNonContracting := [1]
  lhsBatch := []
  rhsBatch := []
  wf := dot_S50000x448_S448x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.BitsEdgeBody.lean ====
/-
  The edge perceptron's launch, one grid point at a time.  The first pallas_call runs over 160 points; at point `t`
  it is handed rows 5000·t … 5000·t + 4999 of the gathered node features (a 5000 × 128 block), the whole weight
  matrices and bias vectors (their block index is constant, so they are fetched once and found again at every
  later point), and a 5000 × 256 output buffer whose previous contents it reads and discards.  It stores one value
  over the whole output buffer: the perceptron of the input block.  This module states that fact for the program
  text, at any float instance: what each input buffer holds when the body is called (its block of the array the
  region was entered with), what the body leaves in the output buffer (`stored`), and the pipeline's proof data
  built from the two, ending in the body obligation the pipeline's launch theorem asks for.  The arrays the
  region is entered with are a parameter `V`; the run instantiates it.
-/
import proofs.«130831_j7138235646189_1_alg».proof.Proof.Gen.Kernel.Launch
import proofs.«130831_j7138235646189_1_alg».proof.Proof.Gen.Kernel.Skeleton
import proofs.«130831_j7138235646189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the index map
    selects there. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block: an input's staging buffer holds its block at every point, whether the pipeline fetched it
    there or the block index did not move since the last fetch — for any proof data over `V`'s arrays whose body
    leaves the block in place. -/
theorem held_features {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The first weight matrix, the same. -/
theorem held_w1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The first bias vector, the same. -/
theorem held_b1 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- The second weight matrix, the same. -/
theorem held_w2 {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- The second bias vector, the same. -/
theorem held_b2 {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store go through the whole buffer -/

abbrev wholeX : Rect S5000x128 := Rect.unit (s := S5000x128) ![0, 0] S5000x128.size inb_S5000x128_S5000x128_0_0
abbrev wholeW1 : Rect S128x256 := Rect.unit (s := S128x256) ![0, 0] S128x256.size inb_S128x256_S128x256_0_0
abbrev wholeB : Rect S256 := Rect.unit (s := S256) ![0] S256.size inb_S256_S256_0
abbrev wholeW2 : Rect S256x256 := Rect.unit (s := S256x256) ![0, 0] S256x256.size inb_S256x256_S256x256_0_0
abbrev wholeH : Rect S5000x256 := Rect.unit (s := S5000x256) ![0, 0] S5000x256.size inb_S5000x256_S5000x256_0_0

/-! ## What the body leaves in the output buffer -/

/-- The output buffer after the body, from the five input buffers' contents: the one store, of the perceptron of the
    loaded values, read back as a function of the buffer's index. -/
def stored (x0 : Vec F S5000x128 .f32) (x1 : Vec F S128x256 .f32) (x2 : Vec F S256 .f32) (x3 : Vec F S256x256 .f32) (x4 : Vec F S256 .f32) : Vec F S5000x256 .f32 :=
  View.canon [⟨wholeH, k0_pay1 (View.ld x0 wholeX) (View.ld x1 wholeW1) (View.ld x2 wholeB) (View.ld x3 wholeW2) (View.ld x4 wholeB)⟩]

/-- The store goes through the whole buffer, so it covers it. -/
theorem stored_covers (p0 : Vec F S5000x256 .f32) (y : S5000x256.Idx) :
    ∃ pc ∈ ([⟨wholeH, p0⟩] : List (View.Piece (Elt F) S5000x256 .f32)), y ∈ pc.1.set :=
  View.cover_of_tiled [⟨wholeH, p0⟩] S5000x256.size (by rfl) y

/-! ## The body's triple -/

set_option maxHeartbeats 1000000 in
/-- The body on whole staging buffers, the inputs' at contents `x0 … x4` and the output's at anything, runs to the end
    leaving the inputs' as they were and the output's at `stored x0 … x4`. -/
theorem body_runs (c : Dev nD) (E : Set ℕ) (i : grid0.Coords) (arg1 : Memref sig .tc .vmem S5000x128 .f32) (harg1 : arg1.IsWhole) (arg2 : Memref sig .tc .vmem S128x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S5000x256 .f32) (harg6 : arg6.IsWhole)
    (x0 : Vec F S5000x128 .f32) (x1 : Vec F S128x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the edge pipeline on core `c`: the arrays as the region finds them; after the body at point `t`
    each input's buffer at its block and the output's at `stored` of the input blocks; the scoped rest and the generator
    register untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

/-- The proof data's arrays are the region-entry contents. -/
theorem dat_A (c : Dev nD) (w : Fin cfg0.W) : (dat V c).A w = V c (Pipeline.arrRef spec0 w) := by
  dsimp only [dat]

theorem after_features (c : Dev nD) (t : Fin cfg0.N) : (dat V c).after 0 t = blockAt V c 0 t := by dsimp only [dat]
theorem after_w1 (c : Dev nD) (t : Fin cfg0.N) : (dat V c).after 1 t = blockAt V c 1 t := by dsimp only [dat]
theorem after_b1 (c : Dev nD) (t : Fin cfg0.N) : (dat V c).after 2 t = blockAt V c 2 t := by dsimp only [dat]
theorem after_w2 (c : Dev nD) (t : Fin cfg0.N) : (dat V c).after 3 t = blockAt V c 3 t := by dsimp only [dat]
theorem after_b2 (c : Dev nD) (t : Fin cfg0.N) : (dat V c).after 4 t = blockAt V c 4 t := by dsimp only [dat]
/-- What the body leaves in the output buffer at point `t`: the perceptron of the point's input blocks. -/
theorem after_out (c : Dev nD) (t : Fin cfg0.N) :
    (dat V c).after 5 t = stored (blockAt V c 0 t) (blockAt V c 1 t) (blockAt V c 2 t) (blockAt V c 3 t) (blockAt V c 4 t) := by dsimp only [dat]

theorem before_features (c : Dev nD) (t : Fin cfg0.N) (d) : (dat V c).before 0 t d = blockAt V c 0 t :=
  held_features V (dat V c) (dat_A V c 0) (after_features V c) t d
theorem before_w1 (c : Dev nD) (t : Fin cfg0.N) (d) : (dat V c).before 1 t d = blockAt V c 1 t :=
  held_w1 V (dat V c) (dat_A V c 1) (after_w1 V c) t d
theorem before_b1 (c : Dev nD) (t : Fin cfg0.N) (d) : (dat V c).before 2 t d = blockAt V c 2 t :=
  held_b1 V (dat V c) (dat_A V c 2) (after_b1 V c) t d
theorem before_w2 (c : Dev nD) (t : Fin cfg0.N) (d) : (dat V c).before 3 t d = blockAt V c 3 t :=
  held_w2 V (dat V c) (dat_A V c 3) (after_w2 V c) t d
theorem before_b2 (c : Dev nD) (t : Fin cfg0.N) (d) : (dat V c).before 4 t d = blockAt V c 4 t :=
  held_b2 V (dat V c) (dat_A V c 4) (after_b2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_features, before_w1, before_b1, before_w2, before_b2]
  rw [show (dat V c).Φ t.succ = (dat V c).Φ t.castSucc from rfl,
    show (dat V c).owesAt () t.succ = (dat V c).owesAt () t.castSucc from rfl,
    after_features, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact body_at V c t

end Cert.Kernel.Edge

end
-- ==== Proof.BitsNodeBody.lean ====
/-
  The node perceptron's launch, one grid point at a time.  The second pallas_call runs over 25 points; at point `t`
  it is handed rows 2000·t … 2000·t + 1999 of the concatenated node features (a 2000 × 448 block: the node's own
  features, the mean of its incoming edge messages, its graph's global features), the whole weight matrices and
  bias vectors (constant block index: fetched once, found again at every later point), and a 2000 × 128 output
  buffer whose previous contents it reads and discards.  It stores one value over the whole output buffer: the
  perceptron of the input block.  As for the edge perceptron, this module states that for the program text at any
  float instance — what each input buffer holds at the call, what the body leaves in the output buffer
  (`stored`), the pipeline's proof data, the body obligation — over a parameter `V`, the arrays the region is
  entered with.
-/
import proofs.«130831_j7138235646189_1_alg».proof.Proof.Gen.Kernel.Launch
import proofs.«130831_j7138235646189_1_alg».proof.Proof.Gen.Kernel.Skeleton
import proofs.«130831_j7138235646189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the index map
    selects there. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block: an input's staging buffer holds its block at every point, whether the pipeline fetched it
    there or the block index did not move since the last fetch — for any proof data over `V`'s arrays whose body
    leaves the block in place. -/
theorem held_features {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The first weight matrix, the same. -/
theorem held_w3 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The first bias vector, the same. -/
theorem held_b3 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- The second weight matrix, the same. -/
theorem held_w4 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- The second bias vector, the same. -/
theorem held_b4 {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store go through the whole buffer -/

abbrev wholeZ : Rect S2000x448 := Rect.unit (s := S2000x448) ![0, 0] S2000x448.size inb_S2000x448_S2000x448_0_0
abbrev wholeW3 : Rect S448x256 := Rect.unit (s := S448x256) ![0, 0] S448x256.size inb_S448x256_S448x256_0_0
abbrev wholeB3 : Rect S256 := Rect.unit (s := S256) ![0] S256.size inb_S256_S256_0
abbrev wholeW4 : Rect S256x128 := Rect.unit (s := S256x128) ![0, 0] S256x128.size inb_S256x128_S256x128_0_0
abbrev wholeB4 : Rect S128 := Rect.unit (s := S128) ![0] S128.size inb_S128_S128_0
abbrev wholeOut : Rect S2000x128 := Rect.unit (s := S2000x128) ![0, 0] S2000x128.size inb_S2000x128_S2000x128_0_0

/-! ## What the body leaves in the output buffer -/

/-- The output buffer after the body, from the five input buffers' contents: the one store, of the perceptron of the
    loaded values, read back as a function of the buffer's index. -/
def stored (x0 : Vec F S2000x448 .f32) (x1 : Vec F S448x256 .f32) (x2 : Vec F S256 .f32) (x3 : Vec F S256x128 .f32) (x4 : Vec F S128 .f32) : Vec F S2000x128 .f32 :=
  View.canon [⟨wholeOut, k1_pay1 (View.ld x0 wholeZ) (View.ld x1 wholeW3) (View.ld x2 wholeB3) (View.ld x3 wholeW4) (View.ld x4 wholeB4)⟩]

/-- The store goes through the whole buffer, so it covers it. -/
theorem stored_covers (p0 : Vec F S2000x128 .f32) (y : S2000x128.Idx) :
    ∃ pc ∈ ([⟨wholeOut, p0⟩] : List (View.Piece (Elt F) S2000x128 .f32)), y ∈ pc.1.set :=
  View.cover_of_tiled [⟨wholeOut, p0⟩] S2000x128.size (by rfl) y

/-! ## The body's triple -/

set_option maxHeartbeats 1000000 in
/-- The body on whole staging buffers, the inputs' at contents `x0 … x4` and the output's at anything, runs to the end
    leaving the inputs' as they were and the output's at `stored x0 … x4`. -/
theorem body_runs (c : Dev nD) (E : Set ℕ) (i : grid1.Coords) (arg1 : Memref sig .tc .vmem S2000x448 .f32) (harg1 : arg1.IsWhole) (arg2 : Memref sig .tc .vmem S448x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S2000x128 .f32) (harg6 : arg6.IsWhole)
    (x0 : Vec F S2000x448 .f32) (x1 : Vec F S448x256 .f32) (x2 : Vec F S256 .f32) (x3 : Vec F S256x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the node pipeline on core `c`: the arrays as the region finds them; after the body at point `t`
    each input's buffer at its block and the output's at `stored` of the input blocks; the scoped rest and the generator
    register untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec1 c
  q _ := fullShare
  owed _ := 0

/-- The proof data's arrays are the region-entry contents. -/
theorem dat_A (c : Dev nD) (w : Fin cfg1.W) : (dat V c).A w = V c (Pipeline.arrRef spec1 w) := by
  dsimp only [dat]

theorem after_features (c : Dev nD) (t : Fin cfg1.N) : (dat V c).after 0 t = blockAt V c 0 t := by dsimp only [dat]
theorem after_w3 (c : Dev nD) (t : Fin cfg1.N) : (dat V c).after 1 t = blockAt V c 1 t := by dsimp only [dat]
theorem after_b3 (c : Dev nD) (t : Fin cfg1.N) : (dat V c).after 2 t = blockAt V c 2 t := by dsimp only [dat]
theorem after_w4 (c : Dev nD) (t : Fin cfg1.N) : (dat V c).after 3 t = blockAt V c 3 t := by dsimp only [dat]
theorem after_b4 (c : Dev nD) (t : Fin cfg1.N) : (dat V c).after 4 t = blockAt V c 4 t := by dsimp only [dat]
/-- What the body leaves in the output buffer at point `t`: the perceptron of the point's input blocks. -/
theorem after_out (c : Dev nD) (t : Fin cfg1.N) :
    (dat V c).after 5 t = stored (blockAt V c 0 t) (blockAt V c 1 t) (blockAt V c 2 t) (blockAt V c 3 t) (blockAt V c 4 t) := by dsimp only [dat]

theorem before_features (c : Dev nD) (t : Fin cfg1.N) (d) : (dat V c).before 0 t d = blockAt V c 0 t :=
  held_features V (dat V c) (dat_A V c 0) (after_features V c) t d
theorem before_w3 (c : Dev nD) (t : Fin cfg1.N) (d) : (dat V c).before 1 t d = blockAt V c 1 t :=
  held_w3 V (dat V c) (dat_A V c 1) (after_w3 V c) t d
theorem before_b3 (c : Dev nD) (t : Fin cfg1.N) (d) : (dat V c).before 2 t d = blockAt V c 2 t :=
  held_b3 V (dat V c) (dat_A V c 2) (after_b3 V c) t d
theorem before_w4 (c : Dev nD) (t : Fin cfg1.N) (d) : (dat V c).before 3 t d = blockAt V c 3 t :=
  held_w4 V (dat V c) (dat_A V c 3) (after_w4 V c) t d
theorem before_b4 (c : Dev nD) (t : Fin cfg1.N) (d) : (dat V c).before 4 t d = blockAt V c 4 t :=
  held_b4 V (dat V c) (dat_A V c 4) (after_b4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_features, before_w3, before_b3, before_w4, before_b4]
  rw [show (dat V c).Φ t.succ = (dat V c).Φ t.castSucc from rfl,
    show (dat V c).owesAt () t.succ = (dat V c).owesAt () t.castSucc from rfl,
    after_features, after_w3, after_b3, after_w4, after_b4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact body_at V c t

end Cert.Kernel.Node

end
-- ==== Proof.BitsRun.lean ====
/-
  The whole run of the program: two stretches of host operations and the two perceptron launches, in order.
  Between two items every unscoped buffer of the core holds a known value, a fold from the launch memory: after a
  host stretch, what its operations compute from the buffers before it; after a launch, the launch's arrays at what
  the pipeline's write-backs leave (an input array as it was, the output array block by block at what the body
  stored) and every other buffer as it was.  Each launch is one segment of the run, entered from the buffers'
  contents before it and left at the contents after it; the run theorem then says that every weakly fair execution
  terminates, nothing faulting, and reads every unscoped buffer of the final memory at the last fold.  Two readings
  of that are stated: the twelve argument arrays end as launched (no host operation writes one, and a launch only
  reads them), and the result array ends at the node launch's output.
-/
import proofs.«130831_j7138235646189_1_alg».proof.Proof.BitsEdgeBody
import proofs.«130831_j7138235646189_1_alg».proof.Proof.BitsNodeBody
import proofs.«130831_j7138235646189_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev atLaunch : Dev nD → Valuation τ sig (Elt F) := fun c b => (s₀ m ρ).mem ((c : Dev nD), b)
/-- After the first host stretch (index clean-up and the gather of source-node features): the edge launch's entry. -/
abbrev atEdgeEntry : Dev nD → Valuation τ sig (Elt F) := fun c => StableHlo.after hostOps0 (atLaunch m ρ c)
/-- The same read at the TensorCore's references. -/
abbrev edgeEntry : (c : Dev nD) → (b : Ref sig .tc) → Buf (Elt F) ((c : Thread nD τ).loc b) := fun c b => atEdgeEntry m ρ c b
/-- At the edge launch's exit: its arrays at what the pipeline leaves, every other buffer as entered. -/
def atEdgeExit (c : Dev nD) : Valuation τ sig (Elt F) :=
  Pipeline.withArrays spec0 c (atEdgeEntry m ρ c) fun w => (Edge.dat (edgeEntry m ρ) c).arrAt w cfg0.N
theorem atEdgeExit_arr (c : Dev nD) (w : Fin cfg0.W) :
    atEdgeExit m ρ c (Proc.devRef .tc (Pipeline.arrRef spec0 w)) = (Edge.dat (edgeEntry m ρ) c).arrAt w cfg0.N := by
  unfold atEdgeExit; exact Pipeline.withArrays_arr spec0 launch0.win.arr_inj c _ _ w
theorem atEdgeExit_of_ne (c : Dev nD) (b : Ref sig .tc) (hb : ∀ w, Pipeline.arrRef spec0 w ≠ b) :
    atEdgeExit m ρ c (Proc.devRef .tc b) = atEdgeEntry m ρ c (Proc.devRef .tc b) := by
  unfold atEdgeExit; exact Pipeline.withArrays_of_ne spec0 c _ _ b hb
abbrev edgeExit : (c : Dev nD) → (b : Ref sig .tc) → Buf (Elt F) ((c : Thread nD τ).loc b) := fun c b => atEdgeExit m ρ c b
theorem edge_arrays (c : Dev nD) (w : Fin cfg0.W) : (Edge.dat (edgeEntry m ρ) c).arrAt w cfg0.N = edgeExit m ρ c (Pipeline.arrRef spec0 w) :=
  (atEdgeExit_arr m ρ c w).symm
theorem edge_rest (c : Dev nD) : ∀ b, b ∉ Finset.univ.image (Pipeline.arrRef spec0) → edgeExit m ρ c b = edgeEntry m ρ c b :=
  fun b hb => atEdgeExit_of_ne m ρ c b fun w e => hb (Finset.mem_image.mpr ⟨w, Finset.mem_univ _, e⟩)

/-- After the second host stretch (scatter-mean of the edge messages, the gather of graph features, the concatenate):
    the node launch's entry. -/
abbrev atNodeEntry : Dev nD → Valuation τ sig (Elt F) := fun c => StableHlo.after hostOps1 (atEdgeExit m ρ c)
abbrev nodeEntry : (c : Dev nD) → (b : Ref sig .tc) → Buf (Elt F) ((c : Thread nD τ).loc b) := fun c b => atNodeEntry m ρ c b
/-- At the node launch's exit: its arrays at what the pipeline leaves, every other buffer as entered. -/
def atNodeExit (c : Dev nD) : Valuation τ sig (Elt F) :=
  Pipeline.withArrays spec1 c (atNodeEntry m ρ c) fun w => (Node.dat (nodeEntry m ρ) c).arrAt w cfg1.N
theorem atNodeExit_arr (c : Dev nD) (w : Fin cfg1.W) :
    atNodeExit m ρ c (Proc.devRef .tc (Pipeline.arrRef spec1 w)) = (Node.dat (nodeEntry m ρ) c).arrAt w cfg1.N := by
  unfold atNodeExit; exact Pipeline.withArrays_arr spec1 launch1.win.arr_inj c _ _ w
theorem atNodeExit_of_ne (c : Dev nD) (b : Ref sig .tc) (hb : ∀ w, Pipeline.arrRef spec1 w ≠ b) :
    atNodeExit m ρ c (Proc.devRef .tc b) = atNodeEntry m ρ c (Proc.devRef .tc b) := by
  unfold atNodeExit; exact Pipeline.withArrays_of_ne spec1 c _ _ b hb
abbrev nodeExit : (c : Dev nD) → (b : Ref sig .tc) → Buf (Elt F) ((c : Thread nD τ).loc b) := fun c b => atNodeExit m ρ c b
theorem node_arrays (c : Dev nD) (w : Fin cfg1.W) : (Node.dat (nodeEntry m ρ) c).arrAt w cfg1.N = nodeExit m ρ c (Pipeline.arrRef spec1 w) :=
  (atNodeExit_arr m ρ c w).symm
theorem node_rest (c : Dev nD) : ∀ b, b ∉ Finset.univ.image (Pipeline.arrRef spec1) → nodeExit m ρ c b = nodeEntry m ρ c b :=
  fun b hb => atNodeExit_of_ne m ρ c b fun w e => hb (Finset.mem_image.mpr ⟨w, Finset.mem_univ _, e⟩)

/-! ## Walking a buffer back through the boundaries -/

/-- A buffer the first host stretch does not write holds its launch contents at the edge launch's entry. -/
theorem edgeEntry_of (c : Dev nD) (b : Ref sig .tc) (h : b ∉ hostOps0_W) : atEdgeEntry m ρ c b = m ((c : Thread nD τ).loc b) :=
  (StableHlo.after_of_writes_sub hostOps0 _ hostOps0_writes h).trans rfl
/-- A buffer the second host stretch does not write is, at the node launch's entry, as the edge launch left it. -/
theorem nodeEntry_of (c : Dev nD) (b : Ref sig .tc) (h : b ∉ hostOps1_W) : atNodeEntry m ρ c b = atEdgeExit m ρ c b :=
  StableHlo.after_of_writes_sub hostOps1 _ hostOps1_writes h
/-- An input array of the edge launch leaves it as it entered. -/
theorem edgeExit_input (c : Dev nD) (w : Fin cfg0.W) (hw : (cfg0.win w).isOut = false) :
    atEdgeExit m ρ c (Proc.devRef .tc (Pipeline.arrRef spec0 w)) = atEdgeEntry m ρ c (Proc.devRef .tc (Pipeline.arrRef spec0 w)) :=
  (atEdgeExit_arr m ρ c w).trans (((Edge.dat (edgeEntry m ρ) c).arrAt_in w hw _).trans (Edge.dat_A (edgeEntry m ρ) c w))
/-- An input array of the node launch leaves it as it entered. -/
theorem nodeExit_input (c : Dev nD) (w : Fin cfg1.W) (hw : (cfg1.win w).isOut = false) :
    atNodeExit m ρ c (Proc.devRef .tc (Pipeline.arrRef spec1 w)) = atNodeEntry m ρ c (Proc.devRef .tc (Pipeline.arrRef spec1 w)) :=
  (atNodeExit_arr m ρ c w).trans (((Node.dat (nodeEntry m ρ) c).arrAt_in w hw _).trans (Node.dat_A (nodeEntry m ρ) c w))

/-- An array neither launch stages and no host operation writes ends as launched. -/
theorem untouched (c : Dev nD) (b : Ref sig .tc) (h1 : ∀ w, Pipeline.arrRef spec1 w ≠ b) (h1' : b ∉ hostOps1_W)
    (h0 : ∀ w, Pipeline.arrRef spec0 w ≠ b) (h0' : b ∉ hostOps0_W) :
    atNodeExit m ρ c (Proc.devRef .tc b) = m ((c : Thread nD τ).loc b) :=
  (atNodeExit_of_ne m ρ c b h1).trans ((nodeEntry_of m ρ c b h1').trans ((atEdgeExit_of_ne m ρ c b h0).trans (edgeEntry_of m ρ c b h0')))

theorem exit_main_arg0 (c : Dev nD) : atNodeExit m ρ c (Proc.devRef .tc main_arg0) = m ((c : Thread nD τ).loc main_arg0) :=
  untouched m ρ c main_arg0 (by decide) (by decide) (by decide) (by decide)
theorem exit_main_arg1 (c : Dev nD) : atNodeExit m ρ c (Proc.devRef .tc main_arg1) = m ((c : Thread nD τ).loc main_arg1) :=
  untouched m ρ c main_arg1 (by decide) (by decide) (by decide) (by decide)
theorem exit_main_arg2 (c : Dev nD) : atNodeExit m ρ c (Proc.devRef .tc main_arg2) = m ((c : Thread nD τ).loc main_arg2) :=
  untouched m ρ c main_arg2 (by decide) (by decide) (by decide) (by decide)
theorem exit_main_arg3 (c : Dev nD) : atNodeExit m ρ c (Proc.devRef .tc main_arg3) = m ((c : Thread nD τ).loc main_arg3) :=
  untouched m ρ c main_arg3 (by decide) (by decide) (by decide) (by decide)
/-- The edge launch's weights and biases: read through an input window there, untouched elsewhere. -/
theorem exit_main_arg4 (c : Dev nD) : atNodeExit m ρ c (Proc.devRef .tc main_arg4) = m ((c : Thread nD τ).loc main_arg4) :=
  (atNodeExit_of_ne m ρ c main_arg4 (by decide)).trans ((nodeEntry_of m ρ c main_arg4 (by decide)).trans ((edgeExit_input m ρ c 1 rfl).trans (edgeEntry_of m ρ c main_arg4 (by decide))))
theorem exit_main_arg5 (c : Dev nD) : atNodeExit m ρ c (Proc.devRef .tc main_arg5) = m ((c : Thread nD τ).loc main_arg5) :=
  (atNodeExit_of_ne m ρ c main_arg5 (by decide)).trans ((nodeEntry_of m ρ c main_arg5 (by decide)).trans ((edgeExit_input m ρ c 2 rfl).trans (edgeEntry_of m ρ c main_arg5 (by decide))))
theorem exit_main_arg6 (c : Dev nD) : atNodeExit m ρ c (Proc.devRef .tc main_arg6) = m ((c : Thread nD τ).loc main_arg6) :=
  (atNodeExit_of_ne m ρ c main_arg6 (by decide)).trans ((nodeEntry_of m ρ c main_arg6 (by decide)).trans ((edgeExit_input m ρ c 3 rfl).trans (edgeEntry_of m ρ c main_arg6 (by decide))))
theorem exit_main_arg7 (c : Dev nD) : atNodeExit m ρ c (Proc.devRef .tc main_arg7) = m ((c : Thread nD τ).loc main_arg7) :=
  (atNodeExit_of_ne m ρ c main_arg7 (by decide)).trans ((nodeEntry_of m ρ c main_arg7 (by decide)).trans ((edgeExit_input m ρ c 4 rfl).trans (edgeEntry_of m ρ c main_arg7 (by decide))))
/-- The node launch's weights and biases: read through an input window there, untouched before. -/
theorem exit_main_arg8 (c : Dev nD) : atNodeExit m ρ c (Proc.devRef .tc main_arg8) = m ((c : Thread nD τ).loc main_arg8) :=
  (nodeExit_input m ρ c 1 rfl).trans ((nodeEntry_of m ρ c main_arg8 (by decide)).trans ((atEdgeExit_of_ne m ρ c main_arg8 (by decide)).trans (edgeEntry_of m ρ c main_arg8 (by decide))))
theorem exit_main_arg9 (c : Dev nD) : atNodeExit m ρ c (Proc.devRef .tc main_arg9) = m ((c : Thread nD τ).loc main_arg9) :=
  (nodeExit_input m ρ c 2 rfl).trans ((nodeEntry_of m ρ c main_arg9 (by decide)).trans ((atEdgeExit_of_ne m ρ c main_arg9 (by decide)).trans (edgeEntry_of m ρ c main_arg9 (by decide))))
theorem exit_main_arg10 (c : Dev nD) : atNodeExit m ρ c (Proc.devRef .tc main_arg10) = m ((c : Thread nD τ).loc main_arg10) :=
  (nodeExit_input m ρ c 3 rfl).trans ((nodeEntry_of m ρ c main_arg10 (by decide)).trans ((atEdgeExit_of_ne m ρ c main_arg10 (by decide)).trans (edgeEntry_of m ρ c main_arg10 (by decide))))
theorem exit_main_arg11 (c : Dev nD) : atNodeExit m ρ c (Proc.devRef .tc main_arg11) = m ((c : Thread nD τ).loc main_arg11) :=
  (nodeExit_input m ρ c 4 rfl).trans ((nodeEntry_of m ρ c main_arg11 (by decide)).trans ((atEdgeExit_of_ne m ρ c main_arg11 (by decide)).trans (edgeEntry_of m ρ c main_arg11 (by decide))))

/-! ## The proof data family and the thread state -/

/-- No pipeline has a prefetched table. -/
abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => Edge.dat (edgeEntry m ρ) c
  | ⟨1, _⟩ => fun c => Node.dat (nodeEntry m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev atEnd (c : Dev nD) : sProp 𝕄 := iprop(StableHlo.held (c : Thread nD τ) (Pipeline.ucRefs τ sig) (atNodeExit m ρ c) ∗ ∃ r, prngReg c r)

/-! ## The launches as segments -/

set_option backward.isDefEq.respectTransparency.types false in
/-- The edge launch over the thread state: entered from every unscoped buffer at `atEdgeEntry`, left at `atEdgeExit`.
    Its arrays are split out of the unscoped buffers and put back at the exit contents; the generator register goes
    into the pipeline's invariant and comes out; nothing is owed; the body has no semaphore of its own. -/
def edgeSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (edgeEntry m ρ) c).loose
  hwaits := Pipeline.hwaits_of_owed_zero _ _ _ _ L lv 0 fun _ _ => rfl
  pre c := iprop(StableHlo.held (c : Thread nD τ) (Pipeline.ucRefs τ sig) (atEdgeEntry m ρ c) ∗ R c)
  post c := iprop(StableHlo.held (c : Thread nD τ) (Pipeline.ucRefs τ sig) (atEdgeExit m ρ c) ∗ R c)
  X c := iprop(∃ r, prngReg c r)
  Y c := iprop(∃ r, prngReg c r)
  Z c := Pipeline.unscopedRest (Ix := Unit) (Name := ℕ) (U := UR sig nD τ) (Lvl := ℕ) spec0 c (edgeEntry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (edgeEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (edgeEntry m ρ c) (edgeExit m ρ c) ((pdats m ρ 0 c).arrAt · cfg0.N) (edge_arrays m ρ c) (edge_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node launch over the thread state: entered from every unscoped buffer at `atNodeEntry`, left at `atNodeExit`,
    which the end of the run reads.  The same routing as the edge launch. -/
def nodeSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (nodeEntry m ρ) c).loose
  hwaits := Pipeline.hwaits_of_owed_zero _ _ _ _ L lv 1 fun _ _ => rfl
  pre c := iprop(StableHlo.held (c : Thread nD τ) (Pipeline.ucRefs τ sig) (atNodeEntry m ρ c) ∗ R c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeEntry m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (nodeEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (nodeEntry m ρ c) (nodeExit m ρ c) ((pdats m ρ 1 c).arrAt · cfg1.N) (node_arrays m ρ c) (node_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's four segments in order. -/
abbrev segs : List (Pipeline.Seg (pcfgs (F := F)) adm (pdats m ρ) () defs₀ 𝒱₀ L lv) :=
  [ .host (hseg hostOps0 hostOps0_sub hostOps0_fresh (atLaunch m ρ)),
    .region (edgeSeg m ρ),
    .host (hseg hostOps1 hostOps1_sub hostOps1_fresh (atEdgeExit m ρ)),
    .region (nodeSeg m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every unscoped buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atNodeExit m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atEnd m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atNodeExit m ρ c b)
    (hfin := fun c s' => by
      iintro ⟨⟨Hh, -⟩, HSI⟩
      unfold StableHlo.held
      imodintro
      iapply (pointsTo_read_all (Pipeline.ucRefs τ sig) (fun b => (((c : Thread nD τ)).1, b)) (atNodeExit m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (exit_main_arg0 m ρ c),
     (h c _ (mem_uc main_arg1 (by decide))).trans (exit_main_arg1 m ρ c),
     (h c _ (mem_uc main_arg2 (by decide))).trans (exit_main_arg2 m ρ c),
     (h c _ (mem_uc main_arg3 (by decide))).trans (exit_main_arg3 m ρ c),
     (h c _ (mem_uc main_arg4 (by decide))).trans (exit_main_arg4 m ρ c),
     (h c _ (mem_uc main_arg5 (by decide))).trans (exit_main_arg5 m ρ c),
     (h c _ (mem_uc main_arg6 (by decide))).trans (exit_main_arg6 m ρ c),
     (h c _ (mem_uc main_arg7 (by decide))).trans (exit_main_arg7 m ρ c),
     (h c _ (mem_uc main_arg8 (by decide))).trans (exit_main_arg8 m ρ c),
     (h c _ (mem_uc main_arg9 (by decide))).trans (exit_main_arg9 m ρ c),
     (h c _ (mem_uc main_arg10 (by decide))).trans (exit_main_arg10 m ρ c),
     (h c _ (mem_uc main_arg11 (by decide))).trans (exit_main_arg11 m ρ c)⟩) (run_all m ρ)

/-- The result array ends at what the node launch's write-backs leave. -/
theorem result_at_exit (c : Dev nD) :
    atNodeExit m ρ c (Proc.devRef .tc main_v32) = (Node.dat (nodeEntry m ρ) c).arrAt 5 cfg1.N :=
  atNodeExit_arr m ρ c 5

end Cert.Kernel.Run

end
-- ==== Proof.IdealEdgeBody.lean ====
/-
  The edge perceptron's launch, one grid point at a time.  The first pallas_call runs over 160 points; at point `t`
  it is handed rows 5000·t … 5000·t + 4999 of the gathered node features (a 5000 × 128 block), the whole weight
  matrices and bias vectors (their block index is constant, so they are fetched once and found again at every
  later point), and a 5000 × 256 output buffer whose previous contents it reads and discards.  It stores one value
  over the whole output buffer: the perceptron of the input block.  This module states that fact for the program
  text, at any float instance: what each input buffer holds when the body is called (its block of the array the
  region was entered with), what the body leaves in the output buffer (`stored`), and the pipeline's proof data
  built from the two, ending in the body obligation the pipeline's launch theorem asks for.  The arrays the
  region is entered with are a parameter `V`; the run instantiates it.
-/
import proofs.«130831_j7138235646189_1_alg».proof.Proof.Gen.KernelIdeal.Launch
import proofs.«130831_j7138235646189_1_alg».proof.Proof.Gen.KernelIdeal.Skeleton
import proofs.«130831_j7138235646189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the index map
    selects there. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block: an input's staging buffer holds its block at every point, whether the pipeline fetched it
    there or the block index did not move since the last fetch — for any proof data over `V`'s arrays whose body
    leaves the block in place. -/
theorem held_features {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The first weight matrix, the same. -/
theorem held_w1 {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The first bias vector, the same. -/
theorem held_b1 {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- The second weight matrix, the same. -/
theorem held_w2 {c : Dev nD} (dat : Dat τ (Elt F) Unit ℕ (UR sig nD τ) ℕ cfg0 c) (hA : dat.A 3 = V c (Pipeline.arrRef spec0 3))
    (hafter : ∀ t, dat.after 3 t = blockAt V c 3 t) (t : Fin cfg0.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- The second bias vector, the same. -/
theorem held_b2 {c : Dev nD} (dat : Dat τ (Elt F) Unit ℕ (UR sig nD τ) ℕ cfg0 c) (hA : dat.A 4 = V c (Pipeline.arrRef spec0 4))
    (hafter : ∀ t, dat.after 4 t = blockAt V c 4 t) (t : Fin cfg0.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store go through the whole buffer -/

abbrev wholeX : Rect S5000x128 := Rect.unit (s := S5000x128) ![0, 0] S5000x128.size inb_S5000x128_S5000x128_0_0
abbrev wholeW1 : Rect S128x256 := Rect.unit (s := S128x256) ![0, 0] S128x256.size inb_S128x256_S128x256_0_0
abbrev wholeB : Rect S256 := Rect.unit (s := S256) ![0] S256.size inb_S256_S256_0
abbrev wholeW2 : Rect S256x256 := Rect.unit (s := S256x256) ![0, 0] S256x256.size inb_S256x256_S256x256_0_0
abbrev wholeH : Rect S5000x256 := Rect.unit (s := S5000x256) ![0, 0] S5000x256.size inb_S5000x256_S5000x256_0_0

/-! ## What the body leaves in the output buffer -/

/-- The output buffer after the body, from the five input buffers' contents: the one store, of the perceptron of the
    loaded values, read back as a function of the buffer's index. -/
def stored (x0 : Vec F S5000x128 .f32) (x1 : Vec F S128x256 .f32) (x2 : Vec F S256 .f32) (x3 : Vec F S256x256 .f32) (x4 : Vec F S256 .f32) : Vec F S5000x256 .f32 :=
  View.canon [⟨wholeH, k0_pay1 (View.ld x0 wholeX) (View.ld x1 wholeW1) (View.ld x2 wholeB) (View.ld x3 wholeW2) (View.ld x4 wholeB)⟩]

/-- The store goes through the whole buffer, so it covers it. -/
theorem stored_covers (p0 : Vec F S5000x256 .f32) (y : S5000x256.Idx) :
    ∃ pc ∈ ([⟨wholeH, p0⟩] : List (View.Piece (Elt F) S5000x256 .f32)), y ∈ pc.1.set :=
  View.cover_of_tiled [⟨wholeH, p0⟩] S5000x256.size (by rfl) y

/-! ## The body's triple -/

set_option maxHeartbeats 1000000 in
/-- The body on whole staging buffers, the inputs' at contents `x0 … x4` and the output's at anything, runs to the end
    leaving the inputs' as they were and the output's at `stored x0 … x4`. -/
theorem body_runs (c : Dev nD) (E : Set ℕ) (i : grid0.Coords) (arg1 : Memref sig .tc .vmem S5000x128 .f32) (harg1 : arg1.IsWhole) (arg2 : Memref sig .tc .vmem S128x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S5000x256 .f32) (harg6 : arg6.IsWhole)
    (x0 : Vec F S5000x128 .f32) (x1 : Vec F S128x256 .f32) (x2 : Vec F S256 .f32) (x3 : Vec F S256x256 .f32) (x4 : Vec F S256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc0__edge_mlp_kernel i arg1 harg1 arg2 harg2 arg3 harg3 arg4 harg4 arg5 harg5 arg6 harg6) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the edge pipeline on core `c`: the arrays as the region finds them; after the body at point `t`
    each input's buffer at its block and the output's at `stored` of the input blocks; the scoped rest and the generator
    register untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec0 c
  q _ := fullShare
  owed _ := 0

/-- The proof data's arrays are the region-entry contents. -/
theorem dat_A (c : Dev nD) (w : Fin cfg0.W) : (dat V c).A w = V c (Pipeline.arrRef spec0 w) := by
  dsimp only [dat]

theorem after_features (c : Dev nD) (t : Fin cfg0.N) : (dat V c).after 0 t = blockAt V c 0 t := by dsimp only [dat]
theorem after_w1 (c : Dev nD) (t : Fin cfg0.N) : (dat V c).after 1 t = blockAt V c 1 t := by dsimp only [dat]
theorem after_b1 (c : Dev nD) (t : Fin cfg0.N) : (dat V c).after 2 t = blockAt V c 2 t := by dsimp only [dat]
theorem after_w2 (c : Dev nD) (t : Fin cfg0.N) : (dat V c).after 3 t = blockAt V c 3 t := by dsimp only [dat]
theorem after_b2 (c : Dev nD) (t : Fin cfg0.N) : (dat V c).after 4 t = blockAt V c 4 t := by dsimp only [dat]
/-- What the body leaves in the output buffer at point `t`: the perceptron of the point's input blocks. -/
theorem after_out (c : Dev nD) (t : Fin cfg0.N) :
    (dat V c).after 5 t = stored (blockAt V c 0 t) (blockAt V c 1 t) (blockAt V c 2 t) (blockAt V c 3 t) (blockAt V c 4 t) := by dsimp only [dat]

theorem before_features (c : Dev nD) (t : Fin cfg0.N) (d) : (dat V c).before 0 t d = blockAt V c 0 t :=
  held_features V (dat V c) (dat_A V c 0) (after_features V c) t d
theorem before_w1 (c : Dev nD) (t : Fin cfg0.N) (d) : (dat V c).before 1 t d = blockAt V c 1 t :=
  held_w1 V (dat V c) (dat_A V c 1) (after_w1 V c) t d
theorem before_b1 (c : Dev nD) (t : Fin cfg0.N) (d) : (dat V c).before 2 t d = blockAt V c 2 t :=
  held_b1 V (dat V c) (dat_A V c 2) (after_b1 V c) t d
theorem before_w2 (c : Dev nD) (t : Fin cfg0.N) (d) : (dat V c).before 3 t d = blockAt V c 3 t :=
  held_w2 V (dat V c) (dat_A V c 3) (after_w2 V c) t d
theorem before_b2 (c : Dev nD) (t : Fin cfg0.N) (d) : (dat V c).before 4 t d = blockAt V c 4 t :=
  held_b2 V (dat V c) (dat_A V c 4) (after_b2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

/-- The body at any point: the inputs' buffers hold their blocks, so `body_runs` applies; the invariant and the core's
    dues pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_features, before_w1, before_b1, before_w2, before_b2]
  rw [show (dat V c).Φ t.succ = (dat V c).Φ t.castSucc from rfl,
    show (dat V c).owesAt () t.succ = (dat V c).owesAt () t.castSucc from rfl,
    after_features, after_w1, after_b1, after_w2, after_b2, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W0, bigSep_W0]
  exact body_at V c t

end Cert.KernelIdeal.Edge

end
-- ==== Proof.IdealNodeBody.lean ====
/-
  The node perceptron's launch, one grid point at a time.  The second pallas_call runs over 25 points; at point `t`
  it is handed rows 2000·t … 2000·t + 1999 of the concatenated node features (a 2000 × 448 block: the node's own
  features, the mean of its incoming edge messages, its graph's global features), the whole weight matrices and
  bias vectors (constant block index: fetched once, found again at every later point), and a 2000 × 128 output
  buffer whose previous contents it reads and discards.  It stores one value over the whole output buffer: the
  perceptron of the input block.  As for the edge perceptron, this module states that for the program text at any
  float instance — what each input buffer holds at the call, what the body leaves in the output buffer
  (`stored`), the pipeline's proof data, the body obligation — over a parameter `V`, the arrays the region is
  entered with.
-/
import proofs.«130831_j7138235646189_1_alg».proof.Proof.Gen.KernelIdeal.Launch
import proofs.«130831_j7138235646189_1_alg».proof.Proof.Gen.KernelIdeal.Skeleton
import proofs.«130831_j7138235646189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`: the rows (and columns) of its array, as the region finds it, that the index map
    selects there. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The feature block: an input's staging buffer holds its block at every point, whether the pipeline fetched it
    there or the block index did not move since the last fetch — for any proof data over `V`'s arrays whose body
    leaves the block in place. -/
theorem held_features {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The first weight matrix, the same. -/
theorem held_w3 {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- The first bias vector, the same. -/
theorem held_b3 {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- The second weight matrix, the same. -/
theorem held_w4 {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- The second bias vector, the same. -/
theorem held_b4 {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses: every load and the one store go through the whole buffer -/

abbrev wholeZ : Rect S2000x448 := Rect.unit (s := S2000x448) ![0, 0] S2000x448.size inb_S2000x448_S2000x448_0_0
abbrev wholeW3 : Rect S448x256 := Rect.unit (s := S448x256) ![0, 0] S448x256.size inb_S448x256_S448x256_0_0
abbrev wholeB3 : Rect S256 := Rect.unit (s := S256) ![0] S256.size inb_S256_S256_0
abbrev wholeW4 : Rect S256x128 := Rect.unit (s := S256x128) ![0, 0] S256x128.size inb_S256x128_S256x128_0_0
abbrev wholeB4 : Rect S128 := Rect.unit (s := S128) ![0] S128.size inb_S128_S128_0
abbrev wholeOut : Rect S2000x128 := Rect.unit (s := S2000x128) ![0, 0] S2000x128.size inb_S2000x128_S2000x128_0_0

/-! ## What the body leaves in the output buffer -/

/-- The output buffer after the body, from the five input buffers' contents: the one store, of the perceptron of the
    loaded values, read back as a function of the buffer's index. -/
def stored (x0 : Vec F S2000x448 .f32) (x1 : Vec F S448x256 .f32) (x2 : Vec F S256 .f32) (x3 : Vec F S256x128 .f32) (x4 : Vec F S128 .f32) : Vec F S2000x128 .f32 :=
  View.canon [⟨wholeOut, k1_pay1 (View.ld x0 wholeZ) (View.ld x1 wholeW3) (View.ld x2 wholeB3) (View.ld x3 wholeW4) (View.ld x4 wholeB4)⟩]

/-- The store goes through the whole buffer, so it covers it. -/
theorem stored_covers (p0 : Vec F S2000x128 .f32) (y : S2000x128.Idx) :
    ∃ pc ∈ ([⟨wholeOut, p0⟩] : List (View.Piece (Elt F) S2000x128 .f32)), y ∈ pc.1.set :=
  View.cover_of_tiled [⟨wholeOut, p0⟩] S2000x128.size (by rfl) y

/-! ## The body's triple -/

set_option maxHeartbeats 1000000 in
/-- The body on whole staging buffers, the inputs' at contents `x0 … x4` and the output's at anything, runs to the end
    leaving the inputs' as they were and the output's at `stored x0 … x4`. -/
theorem body_runs (c : Dev nD) (E : Set ℕ) (i : grid1.Coords) (arg1 : Memref sig .tc .vmem S2000x448 .f32) (harg1 : arg1.IsWhole) (arg2 : Memref sig .tc .vmem S448x256 .f32) (harg2 : arg2.IsWhole)
    (arg3 : Memref sig .tc .vmem S256 .f32) (harg3 : arg3.IsWhole) (arg4 : Memref sig .tc .vmem S256x128 .f32) (harg4 : arg4.IsWhole)
    (arg5 : Memref sig .tc .vmem S128 .f32) (harg5 : arg5.IsWhole) (arg6 : Memref sig .tc .vmem S2000x128 .f32) (harg6 : arg6.IsWhole)
    (x0 : Vec F S2000x448 .f32) (x1 : Vec F S448x256 .f32) (x2 : Vec F S256 .f32) (x3 : Vec F S256x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (stored x0 x1 x2 x3 x4)) -∗ K ⟨⟩))
      ⊢ wp frame (wpE (defs₀ (F := F)) Variants.none c none) E (cc1__node_mlp_kernel i arg1 harg1 arg2 harg2 arg3 harg3 arg4 harg4 arg5 harg5 arg6 harg6) K := by
  simp only [cc1__node_mlp_kernel_eq_skeleton]; unfold cc1__node_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (stored_covers _)

/-! ## The pipeline's proof data -/

/-- The proof data of the node pipeline on core `c`: the arrays as the region finds them; after the body at point `t`
    each input's buffer at its block and the output's at `stored` of the input blocks; the scoped rest and the generator
    register untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => stored (blockAt V c 0 t) (blockAt V c 1 t) (blockAt V c 2 t) (blockAt V c 3 t) (blockAt V c 4 t)
  Φ _ := Pipeline.ΦA spec1 c
  q _ := fullShare
  owed _ := 0

/-- The proof data's arrays are the region-entry contents. -/
theorem dat_A (c : Dev nD) (w : Fin cfg1.W) : (dat V c).A w = V c (Pipeline.arrRef spec1 w) := by
  dsimp only [dat]

theorem after_features (c : Dev nD) (t : Fin cfg1.N) : (dat V c).after 0 t = blockAt V c 0 t := by dsimp only [dat]
theorem after_w3 (c : Dev nD) (t : Fin cfg1.N) : (dat V c).after 1 t = blockAt V c 1 t := by dsimp only [dat]
theorem after_b3 (c : Dev nD) (t : Fin cfg1.N) : (dat V c).after 2 t = blockAt V c 2 t := by dsimp only [dat]
theorem after_w4 (c : Dev nD) (t : Fin cfg1.N) : (dat V c).after 3 t = blockAt V c 3 t := by dsimp only [dat]
theorem after_b4 (c : Dev nD) (t : Fin cfg1.N) : (dat V c).after 4 t = blockAt V c 4 t := by dsimp only [dat]
/-- What the body leaves in the output buffer at point `t`: the perceptron of the point's input blocks. -/
theorem after_out (c : Dev nD) (t : Fin cfg1.N) :
    (dat V c).after 5 t = stored (blockAt V c 0 t) (blockAt V c 1 t) (blockAt V c 2 t) (blockAt V c 3 t) (blockAt V c 4 t) := by dsimp only [dat]

theorem before_features (c : Dev nD) (t : Fin cfg1.N) (d) : (dat V c).before 0 t d = blockAt V c 0 t :=
  held_features V (dat V c) (dat_A V c 0) (after_features V c) t d
theorem before_w3 (c : Dev nD) (t : Fin cfg1.N) (d) : (dat V c).before 1 t d = blockAt V c 1 t :=
  held_w3 V (dat V c) (dat_A V c 1) (after_w3 V c) t d
theorem before_b3 (c : Dev nD) (t : Fin cfg1.N) (d) : (dat V c).before 2 t d = blockAt V c 2 t :=
  held_b3 V (dat V c) (dat_A V c 2) (after_b3 V c) t d
theorem before_w4 (c : Dev nD) (t : Fin cfg1.N) (d) : (dat V c).before 3 t d = blockAt V c 3 t :=
  held_w4 V (dat V c) (dat_A V c 3) (after_w4 V c) t d
theorem before_b4 (c : Dev nD) (t : Fin cfg1.N) (d) : (dat V c).before 4 t d = blockAt V c 4 t :=
  held_b4 V (dat V c) (dat_A V c 4) (after_b4 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t))

/-- The body at any point: the inputs' buffers hold their blocks, so `body_runs` applies; the invariant and the core's
    dues pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_features, before_w3, before_b3, before_w4, before_b4]
  rw [show (dat V c).Φ t.succ = (dat V c).Φ t.castSucc from rfl,
    show (dat V c).owesAt () t.succ = (dat V c).owesAt () t.castSucc from rfl,
    after_features, after_w3, after_b3, after_w4, after_b4, after_out]
  iintro ⟨HΦ, Ho, ⟨%d0, H0⟩, ⟨%d1, H1⟩, ⟨%d2, H2⟩, ⟨%d3, H3⟩, ⟨%d4, H4⟩, ⟨%d5, H5⟩⟩
  iapply (body_runs c Set.univ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation (c : Dev nD) : BodyObligation (dat (F := F) V c) (defs₀ (F := F)) Variants.none () Set.univ := fun t => by
  rw [bigSep_W1, bigSep_W1]
  exact body_at V c t

end Cert.KernelIdeal.Node

end
-- ==== Proof.IdealRun.lean ====
/-
  The whole run of the program: two stretches of host operations and the two perceptron launches, in order.
  Between two items every unscoped buffer of the core holds a known value, a fold from the launch memory: after a
  host stretch, what its operations compute from the buffers before it; after a launch, the launch's arrays at what
  the pipeline's write-backs leave (an input array as it was, the output array block by block at what the body
  stored) and every other buffer as it was.  Each launch is one segment of the run, entered from the buffers'
  contents before it and left at the contents after it; the run theorem then says that every weakly fair execution
  terminates, nothing faulting, and reads every unscoped buffer of the final memory at the last fold.  Two readings
  of that are stated: the twelve argument arrays end as launched (no host operation writes one, and a launch only
  reads them), and the result array ends at the node launch's output.
-/
import proofs.«130831_j7138235646189_1_alg».proof.Proof.IdealEdgeBody
import proofs.«130831_j7138235646189_1_alg».proof.Proof.IdealNodeBody
import proofs.«130831_j7138235646189_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev atLaunch : Dev nD → Valuation τ sig (Elt F) := fun c b => (s₀ m ρ).mem ((c : Dev nD), b)
/-- After the first host stretch (index clean-up and the gather of source-node features): the edge launch's entry. -/
abbrev atEdgeEntry : Dev nD → Valuation τ sig (Elt F) := fun c => StableHlo.after hostOps0 (atLaunch m ρ c)
/-- The same read at the TensorCore's references. -/
abbrev edgeEntry : (c : Dev nD) → (b : Ref sig .tc) → Buf (Elt F) ((c : Thread nD τ).loc b) := fun c b => atEdgeEntry m ρ c b
/-- At the edge launch's exit: its arrays at what the pipeline leaves, every other buffer as entered. -/
def atEdgeExit (c : Dev nD) : Valuation τ sig (Elt F) :=
  Pipeline.withArrays spec0 c (atEdgeEntry m ρ c) fun w => (Edge.dat (edgeEntry m ρ) c).arrAt w cfg0.N
theorem atEdgeExit_arr (c : Dev nD) (w : Fin cfg0.W) :
    atEdgeExit m ρ c (Proc.devRef .tc (Pipeline.arrRef spec0 w)) = (Edge.dat (edgeEntry m ρ) c).arrAt w cfg0.N := by
  unfold atEdgeExit; exact Pipeline.withArrays_arr spec0 launch0.win.arr_inj c _ _ w
theorem atEdgeExit_of_ne (c : Dev nD) (b : Ref sig .tc) (hb : ∀ w, Pipeline.arrRef spec0 w ≠ b) :
    atEdgeExit m ρ c (Proc.devRef .tc b) = atEdgeEntry m ρ c (Proc.devRef .tc b) := by
  unfold atEdgeExit; exact Pipeline.withArrays_of_ne spec0 c _ _ b hb
abbrev edgeExit : (c : Dev nD) → (b : Ref sig .tc) → Buf (Elt F) ((c : Thread nD τ).loc b) := fun c b => atEdgeExit m ρ c b
theorem edge_arrays (c : Dev nD) (w : Fin cfg0.W) : (Edge.dat (edgeEntry m ρ) c).arrAt w cfg0.N = edgeExit m ρ c (Pipeline.arrRef spec0 w) :=
  (atEdgeExit_arr m ρ c w).symm
theorem edge_rest (c : Dev nD) : ∀ b, b ∉ Finset.univ.image (Pipeline.arrRef spec0) → edgeExit m ρ c b = edgeEntry m ρ c b :=
  fun b hb => atEdgeExit_of_ne m ρ c b fun w e => hb (Finset.mem_image.mpr ⟨w, Finset.mem_univ _, e⟩)

/-- After the second host stretch (scatter-mean of the edge messages, the gather of graph features, the concatenate):
    the node launch's entry. -/
abbrev atNodeEntry : Dev nD → Valuation τ sig (Elt F) := fun c => StableHlo.after hostOps1 (atEdgeExit m ρ c)
abbrev nodeEntry : (c : Dev nD) → (b : Ref sig .tc) → Buf (Elt F) ((c : Thread nD τ).loc b) := fun c b => atNodeEntry m ρ c b
/-- At the node launch's exit: its arrays at what the pipeline leaves, every other buffer as entered. -/
def atNodeExit (c : Dev nD) : Valuation τ sig (Elt F) :=
  Pipeline.withArrays spec1 c (atNodeEntry m ρ c) fun w => (Node.dat (nodeEntry m ρ) c).arrAt w cfg1.N
theorem atNodeExit_arr (c : Dev nD) (w : Fin cfg1.W) :
    atNodeExit m ρ c (Proc.devRef .tc (Pipeline.arrRef spec1 w)) = (Node.dat (nodeEntry m ρ) c).arrAt w cfg1.N := by
  unfold atNodeExit; exact Pipeline.withArrays_arr spec1 launch1.win.arr_inj c _ _ w
theorem atNodeExit_of_ne (c : Dev nD) (b : Ref sig .tc) (hb : ∀ w, Pipeline.arrRef spec1 w ≠ b) :
    atNodeExit m ρ c (Proc.devRef .tc b) = atNodeEntry m ρ c (Proc.devRef .tc b) := by
  unfold atNodeExit; exact Pipeline.withArrays_of_ne spec1 c _ _ b hb
abbrev nodeExit : (c : Dev nD) → (b : Ref sig .tc) → Buf (Elt F) ((c : Thread nD τ).loc b) := fun c b => atNodeExit m ρ c b
theorem node_arrays (c : Dev nD) (w : Fin cfg1.W) : (Node.dat (nodeEntry m ρ) c).arrAt w cfg1.N = nodeExit m ρ c (Pipeline.arrRef spec1 w) :=
  (atNodeExit_arr m ρ c w).symm
theorem node_rest (c : Dev nD) : ∀ b, b ∉ Finset.univ.image (Pipeline.arrRef spec1) → nodeExit m ρ c b = nodeEntry m ρ c b :=
  fun b hb => atNodeExit_of_ne m ρ c b fun w e => hb (Finset.mem_image.mpr ⟨w, Finset.mem_univ _, e⟩)

/-! ## Walking a buffer back through the boundaries -/

/-- A buffer the first host stretch does not write holds its launch contents at the edge launch's entry. -/
theorem edgeEntry_of (c : Dev nD) (b : Ref sig .tc) (h : b ∉ hostOps0_W) : atEdgeEntry m ρ c b = m ((c : Thread nD τ).loc b) :=
  (StableHlo.after_of_writes_sub hostOps0 _ hostOps0_writes h).trans rfl
/-- A buffer the second host stretch does not write is, at the node launch's entry, as the edge launch left it. -/
theorem nodeEntry_of (c : Dev nD) (b : Ref sig .tc) (h : b ∉ hostOps1_W) : atNodeEntry m ρ c b = atEdgeExit m ρ c b :=
  StableHlo.after_of_writes_sub hostOps1 _ hostOps1_writes h
/-- An input array of the edge launch leaves it as it entered. -/
theorem edgeExit_input (c : Dev nD) (w : Fin cfg0.W) (hw : (cfg0.win w).isOut = false) :
    atEdgeExit m ρ c (Proc.devRef .tc (Pipeline.arrRef spec0 w)) = atEdgeEntry m ρ c (Proc.devRef .tc (Pipeline.arrRef spec0 w)) :=
  (atEdgeExit_arr m ρ c w).trans (((Edge.dat (edgeEntry m ρ) c).arrAt_in w hw _).trans (Edge.dat_A (edgeEntry m ρ) c w))
/-- An input array of the node launch leaves it as it entered. -/
theorem nodeExit_input (c : Dev nD) (w : Fin cfg1.W) (hw : (cfg1.win w).isOut = false) :
    atNodeExit m ρ c (Proc.devRef .tc (Pipeline.arrRef spec1 w)) = atNodeEntry m ρ c (Proc.devRef .tc (Pipeline.arrRef spec1 w)) :=
  (atNodeExit_arr m ρ c w).trans (((Node.dat (nodeEntry m ρ) c).arrAt_in w hw _).trans (Node.dat_A (nodeEntry m ρ) c w))

/-- An array neither launch stages and no host operation writes ends as launched. -/
theorem untouched (c : Dev nD) (b : Ref sig .tc) (h1 : ∀ w, Pipeline.arrRef spec1 w ≠ b) (h1' : b ∉ hostOps1_W)
    (h0 : ∀ w, Pipeline.arrRef spec0 w ≠ b) (h0' : b ∉ hostOps0_W) :
    atNodeExit m ρ c (Proc.devRef .tc b) = m ((c : Thread nD τ).loc b) :=
  (atNodeExit_of_ne m ρ c b h1).trans ((nodeEntry_of m ρ c b h1').trans ((atEdgeExit_of_ne m ρ c b h0).trans (edgeEntry_of m ρ c b h0')))

theorem exit_main_arg0 (c : Dev nD) : atNodeExit m ρ c (Proc.devRef .tc main_arg0) = m ((c : Thread nD τ).loc main_arg0) :=
  untouched m ρ c main_arg0 (by decide) (by decide) (by decide) (by decide)
theorem exit_main_arg1 (c : Dev nD) : atNodeExit m ρ c (Proc.devRef .tc main_arg1) = m ((c : Thread nD τ).loc main_arg1) :=
  untouched m ρ c main_arg1 (by decide) (by decide) (by decide) (by decide)
theorem exit_main_arg2 (c : Dev nD) : atNodeExit m ρ c (Proc.devRef .tc main_arg2) = m ((c : Thread nD τ).loc main_arg2) :=
  untouched m ρ c main_arg2 (by decide) (by decide) (by decide) (by decide)
theorem exit_main_arg3 (c : Dev nD) : atNodeExit m ρ c (Proc.devRef .tc main_arg3) = m ((c : Thread nD τ).loc main_arg3) :=
  untouched m ρ c main_arg3 (by decide) (by decide) (by decide) (by decide)
/-- The edge launch's weights and biases: read through an input window there, untouched elsewhere. -/
theorem exit_main_arg4 (c : Dev nD) : atNodeExit m ρ c (Proc.devRef .tc main_arg4) = m ((c : Thread nD τ).loc main_arg4) :=
  (atNodeExit_of_ne m ρ c main_arg4 (by decide)).trans ((nodeEntry_of m ρ c main_arg4 (by decide)).trans ((edgeExit_input m ρ c 1 rfl).trans (edgeEntry_of m ρ c main_arg4 (by decide))))
theorem exit_main_arg5 (c : Dev nD) : atNodeExit m ρ c (Proc.devRef .tc main_arg5) = m ((c : Thread nD τ).loc main_arg5) :=
  (atNodeExit_of_ne m ρ c main_arg5 (by decide)).trans ((nodeEntry_of m ρ c main_arg5 (by decide)).trans ((edgeExit_input m ρ c 2 rfl).trans (edgeEntry_of m ρ c main_arg5 (by decide))))
theorem exit_main_arg6 (c : Dev nD) : atNodeExit m ρ c (Proc.devRef .tc main_arg6) = m ((c : Thread nD τ).loc main_arg6) :=
  (atNodeExit_of_ne m ρ c main_arg6 (by decide)).trans ((nodeEntry_of m ρ c main_arg6 (by decide)).trans ((edgeExit_input m ρ c 3 rfl).trans (edgeEntry_of m ρ c main_arg6 (by decide))))
theorem exit_main_arg7 (c : Dev nD) : atNodeExit m ρ c (Proc.devRef .tc main_arg7) = m ((c : Thread nD τ).loc main_arg7) :=
  (atNodeExit_of_ne m ρ c main_arg7 (by decide)).trans ((nodeEntry_of m ρ c main_arg7 (by decide)).trans ((edgeExit_input m ρ c 4 rfl).trans (edgeEntry_of m ρ c main_arg7 (by decide))))
/-- The node launch's weights and biases: read through an input window there, untouched before. -/
theorem exit_main_arg8 (c : Dev nD) : atNodeExit m ρ c (Proc.devRef .tc main_arg8) = m ((c : Thread nD τ).loc main_arg8) :=
  (nodeExit_input m ρ c 1 rfl).trans ((nodeEntry_of m ρ c main_arg8 (by decide)).trans ((atEdgeExit_of_ne m ρ c main_arg8 (by decide)).trans (edgeEntry_of m ρ c main_arg8 (by decide))))
theorem exit_main_arg9 (c : Dev nD) : atNodeExit m ρ c (Proc.devRef .tc main_arg9) = m ((c : Thread nD τ).loc main_arg9) :=
  (nodeExit_input m ρ c 2 rfl).trans ((nodeEntry_of m ρ c main_arg9 (by decide)).trans ((atEdgeExit_of_ne m ρ c main_arg9 (by decide)).trans (edgeEntry_of m ρ c main_arg9 (by decide))))
theorem exit_main_arg10 (c : Dev nD) : atNodeExit m ρ c (Proc.devRef .tc main_arg10) = m ((c : Thread nD τ).loc main_arg10) :=
  (nodeExit_input m ρ c 3 rfl).trans ((nodeEntry_of m ρ c main_arg10 (by decide)).trans ((atEdgeExit_of_ne m ρ c main_arg10 (by decide)).trans (edgeEntry_of m ρ c main_arg10 (by decide))))
theorem exit_main_arg11 (c : Dev nD) : atNodeExit m ρ c (Proc.devRef .tc main_arg11) = m ((c : Thread nD τ).loc main_arg11) :=
  (nodeExit_input m ρ c 4 rfl).trans ((nodeEntry_of m ρ c main_arg11 (by decide)).trans ((atEdgeExit_of_ne m ρ c main_arg11 (by decide)).trans (edgeEntry_of m ρ c main_arg11 (by decide))))

/-! ## The proof data family and the thread state -/

/-- No pipeline has a prefetched table. -/
abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => Edge.dat (edgeEntry m ρ) c
  | ⟨1, _⟩ => fun c => Node.dat (nodeEntry m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the core's generator register at some state, and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev atEnd (c : Dev nD) : sProp 𝕄 := iprop(StableHlo.held (c : Thread nD τ) (Pipeline.ucRefs τ sig) (atNodeExit m ρ c) ∗ ∃ r, prngReg c r)

/-! ## The launches as segments -/

set_option backward.isDefEq.respectTransparency.types false in
/-- The edge launch over the thread state: entered from every unscoped buffer at `atEdgeEntry`, left at `atEdgeExit`.
    Its arrays are split out of the unscoped buffers and put back at the exit contents; the generator register goes
    into the pipeline's invariant and comes out; nothing is owed; the body has no semaphore of its own. -/
def edgeSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Edge.body_obligation (edgeEntry m ρ) c).loose
  hwaits := Pipeline.hwaits_of_owed_zero _ _ _ _ L lv 0 fun _ _ => rfl
  pre c := iprop(StableHlo.held (c : Thread nD τ) (Pipeline.ucRefs τ sig) (atEdgeEntry m ρ c) ∗ R c)
  post c := iprop(StableHlo.held (c : Thread nD τ) (Pipeline.ucRefs τ sig) (atEdgeExit m ρ c) ∗ R c)
  X c := iprop(∃ r, prngReg c r)
  Y c := iprop(∃ r, prngReg c r)
  Z c := Pipeline.unscopedRest (Ix := Unit) (Name := ℕ) (U := UR sig nD τ) (Lvl := ℕ) spec0 c (edgeEntry m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (edgeEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (edgeEntry m ρ c) (edgeExit m ρ c) ((pdats m ρ 0 c).arrAt · cfg0.N) (edge_arrays m ρ c) (edge_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node launch over the thread state: entered from every unscoped buffer at `atNodeEntry`, left at `atNodeExit`,
    which the end of the run reads.  The same routing as the edge launch. -/
def nodeSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Node.body_obligation (nodeEntry m ρ) c).loose
  hwaits := Pipeline.hwaits_of_owed_zero _ _ _ _ L lv 1 fun _ _ => rfl
  pre c := iprop(StableHlo.held (c : Thread nD τ) (Pipeline.ucRefs τ sig) (atNodeEntry m ρ c) ∗ R c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (nodeEntry m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (nodeEntry m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (nodeEntry m ρ c) (nodeExit m ρ c) ((pdats m ρ 1 c).arrAt · cfg1.N) (node_arrays m ρ c) (node_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The program's four segments in order. -/
abbrev segs : List (Pipeline.Seg (pcfgs (F := F)) adm (pdats m ρ) () defs₀ 𝒱₀ L lv) :=
  [ .host (hseg hostOps0 hostOps0_sub hostOps0_fresh (atLaunch m ρ)),
    .region (edgeSeg m ρ),
    .host (hseg hostOps1 hostOps1_sub hostOps1_fresh (atEdgeExit m ρ)),
    .region (nodeSeg m ρ) ]
/-- The program is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program on the TensorCores
    terminates, nothing faulting, and every unscoped buffer of the final memory holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atNodeExit m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atEnd m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atNodeExit m ρ c b)
    (hfin := fun c s' => by
      iintro ⟨⟨Hh, -⟩, HSI⟩
      unfold StableHlo.held
      imodintro
      iapply (pointsTo_read_all (Pipeline.ucRefs τ sig) (fun b => (((c : Thread nD τ)).1, b)) (atNodeExit m ρ c) s')
      isplitl [Hh] <;> iassumption)
    (hQ := fun s h => h)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_arg0 (by decide))).trans (exit_main_arg0 m ρ c),
     (h c _ (mem_uc main_arg1 (by decide))).trans (exit_main_arg1 m ρ c),
     (h c _ (mem_uc main_arg2 (by decide))).trans (exit_main_arg2 m ρ c),
     (h c _ (mem_uc main_arg3 (by decide))).trans (exit_main_arg3 m ρ c),
     (h c _ (mem_uc main_arg4 (by decide))).trans (exit_main_arg4 m ρ c),
     (h c _ (mem_uc main_arg5 (by decide))).trans (exit_main_arg5 m ρ c),
     (h c _ (mem_uc main_arg6 (by decide))).trans (exit_main_arg6 m ρ c),
     (h c _ (mem_uc main_arg7 (by decide))).trans (exit_main_arg7 m ρ c),
     (h c _ (mem_uc main_arg8 (by decide))).trans (exit_main_arg8 m ρ c),
     (h c _ (mem_uc main_arg9 (by decide))).trans (exit_main_arg9 m ρ c),
     (h c _ (mem_uc main_arg10 (by decide))).trans (exit_main_arg10 m ρ c),
     (h c _ (mem_uc main_arg11 (by decide))).trans (exit_main_arg11 m ρ c)⟩) (run_all m ρ)

/-- The result array ends at what the node launch's write-backs leave. -/
theorem result_at_exit (c : Dev nD) :
    atNodeExit m ρ c (Proc.devRef .tc main_v32) = (Node.dat (nodeEntry m ρ) c).arrAt 5 cfg1.N :=
  atNodeExit_arr m ρ c 5

end Cert.KernelIdeal.Run

end
-- ==== Proof.MlpRow.lean ====
/-
  One row of a two-layer perceptron over the extended reals.  For a row vector `x`, weights `w1`, `w2` and
  biases `b1`, `b2`, the output at column `q` is
      (Σ_k  max (Σ_l x_l · w1_{l,k} + b1_k) 0 · w2_{k,q}) + b2_q,
  that is `relu (x · W₁ + b₁) · W₂ + b₂`.  Both programs compute every output row by this formula: the kernel on
  a block of rows at a time, the reference on all rows at once; rounding to a narrower float format before a
  product is the identity on extended reals, so no other term appears on either side.
-/
import Idealize.ShloMosaic.PureOps.Ideal

namespace Cert.Mlp

open scoped BigOperators

/-- `relu (x · W₁ + b₁) · W₂ + b₂` at output column `q`, over the extended reals. -/
noncomputable def row {K H M : ℕ} (x : Fin K → EReal) (w1 : Fin K → Fin H → EReal) (b1 : Fin H → EReal)
    (w2 : Fin H → Fin M → EReal) (b2 : Fin M → EReal) (q : Fin M) : EReal :=
  (∑ k : Fin H, max ((∑ l : Fin K, x l * w1 l k) + b1 k) 0 * w2 k q) + b2 q

end Cert.Mlp
-- ==== Proof.PayEdge.lean ====
/-
  The edge kernel's block payload read at one element.  On a block of 5000 rows the body computes
  relu (X · W₁ + b₁) · W₂ + b₂.  On the extended reals the narrowing of a product's operands is the identity and each
  product accumulates into zero, so the element at row p and column q is the specification's row formula applied to
  row p of X: each matrix product is read at an index as the sum over the contracted axis' one coordinate, each bias
  row as the bias vector at the column, and the pointwise operations elementwise.
-/
import proofs.«130831_j7138235646189_1_alg».proof.Proof.Gen.KernelIdeal.Skeleton
import proofs.«130831_j7138235646189_1_alg».proof.Proof.MlpRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

variable [Cert.KernelIdeal.Facts]

/-! ## The two matrix products at an index -/

/-- Along a row axis the left operand of the first product keeps the output's row. -/
theorem edge_mm1_lhs0 (i : S5000x256.Idx) (t : dot_S5000x128_S128x256_S5000x256_1_0_0_1_n_n.contr.Idx) :
    (dot_S5000x128_S128x256_S5000x256_1_0_0_1_n_n.lhsIdx i t 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- Its column is the contracted coordinate. -/
theorem edge_mm1_lhs1 (i : S5000x256.Idx) (t : dot_S5000x128_S128x256_S5000x256_1_0_0_1_n_n.contr.Idx) :
    (dot_S5000x128_S128x256_S5000x256_1_0_0_1_n_n.lhsIdx i t 1).val = (t ⟨0, by decide⟩).val :=
  dot_S5000x128_S128x256_S5000x256_1_0_0_1_n_n.lhsIdx_val_of_single rfl i t
/-- The right operand's row is the contracted coordinate. -/
theorem edge_mm1_rhs0 (i : S5000x256.Idx) (t : dot_S5000x128_S128x256_S5000x256_1_0_0_1_n_n.contr.Idx) :
    (dot_S5000x128_S128x256_S5000x256_1_0_0_1_n_n.rhsIdx i t 0).val = (t ⟨0, by decide⟩).val :=
  dot_S5000x128_S128x256_S5000x256_1_0_0_1_n_n.rhsIdx_val_of_single rfl i t
/-- Its column is the output's column. -/
theorem edge_mm1_rhs1 (i : S5000x256.Idx) (t : dot_S5000x128_S128x256_S5000x256_1_0_0_1_n_n.contr.Idx) :
    (dot_S5000x128_S128x256_S5000x256_1_0_0_1_n_n.rhsIdx i t 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product, [5000,128] × [128,256] accumulated into zero, at (p, c): the sum over the 128 shared coordinates of
    the left operand's row p times the right operand's column c. -/
theorem edge_mm1_apply (A : FVec Ideal S5000x128 .bf16) (B : FVec Ideal S128x256 .bf16) (p : Fin 5000) (c : Fin 256) :
    matmul dot_S5000x128_S128x256_S5000x256_1_0_0_1_n_n none A B (constant (F := Ideal) S5000x256 .f32 0x00000000#32) (ix2 p c)
      = ∑ l : Fin 128, A (ix2 p l) * B (ix2 l c) := by
  refine (Ideal.matmul_constant_zero_apply dot_S5000x128_S128x256_S5000x256_1_0_0_1_n_n none A B (ix2 p c)).trans ?_
  rw [← Equiv.sum_comp (contrEquiv1 dot_S5000x128_S128x256_S5000x256_1_0_0_1_n_n 128 rfl rfl).symm]
  refine Finset.sum_congr rfl fun l _ => ?_
  have hl := contrEquiv1_symm_val dot_S5000x128_S128x256_S5000x256_1_0_0_1_n_n 128 rfl rfl l
  have el : dot_S5000x128_S128x256_S5000x256_1_0_0_1_n_n.lhsIdx (ix2 p c) ((contrEquiv1 dot_S5000x128_S128x256_S5000x256_1_0_0_1_n_n 128 rfl rfl).symm l) = ix2 p l := funext fun a => Fin.ext (by
    match a with
    | ⟨0, _⟩ => exact edge_mm1_lhs0 _ _
    | ⟨1, _⟩ => exact (edge_mm1_lhs1 _ _).trans hl)
  have er : dot_S5000x128_S128x256_S5000x256_1_0_0_1_n_n.rhsIdx (ix2 p c) ((contrEquiv1 dot_S5000x128_S128x256_S5000x256_1_0_0_1_n_n 128 rfl rfl).symm l) = ix2 l c := funext fun a => Fin.ext (by
    match a with
    | ⟨0, _⟩ => exact (edge_mm1_rhs0 _ _).trans hl
    | ⟨1, _⟩ => exact edge_mm1_rhs1 _ _)
  rw [el, er]

/-- Along a row axis the left operand of the second product keeps the output's row. -/
theorem edge_mm2_lhs0 (i : S5000x256.Idx) (t : dot_S5000x256_S256x256_S5000x256_1_0_0_1_n_n.contr.Idx) :
    (dot_S5000x256_S256x256_S5000x256_1_0_0_1_n_n.lhsIdx i t 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- Its column is the contracted coordinate. -/
theorem edge_mm2_lhs1 (i : S5000x256.Idx) (t : dot_S5000x256_S256x256_S5000x256_1_0_0_1_n_n.contr.Idx) :
    (dot_S5000x256_S256x256_S5000x256_1_0_0_1_n_n.lhsIdx i t 1).val = (t ⟨0, by decide⟩).val :=
  dot_S5000x256_S256x256_S5000x256_1_0_0_1_n_n.lhsIdx_val_of_single rfl i t
/-- The right operand's row is the contracted coordinate. -/
theorem edge_mm2_rhs0 (i : S5000x256.Idx) (t : dot_S5000x256_S256x256_S5000x256_1_0_0_1_n_n.contr.Idx) :
    (dot_S5000x256_S256x256_S5000x256_1_0_0_1_n_n.rhsIdx i t 0).val = (t ⟨0, by decide⟩).val :=
  dot_S5000x256_S256x256_S5000x256_1_0_0_1_n_n.rhsIdx_val_of_single rfl i t
/-- Its column is the output's column. -/
theorem edge_mm2_rhs1 (i : S5000x256.Idx) (t : dot_S5000x256_S256x256_S5000x256_1_0_0_1_n_n.contr.Idx) :
    (dot_S5000x256_S256x256_S5000x256_1_0_0_1_n_n.rhsIdx i t 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- The second product, [5000,256] × [256,256] accumulated into zero, at (p, c): the sum over the 256 shared coordinates of
    the left operand's row p times the right operand's column c. -/
theorem edge_mm2_apply (A : FVec Ideal S5000x256 .bf16) (B : FVec Ideal S256x256 .bf16) (p : Fin 5000) (c : Fin 256) :
    matmul dot_S5000x256_S256x256_S5000x256_1_0_0_1_n_n none A B (constant (F := Ideal) S5000x256 .f32 0x00000000#32) (ix2 p c)
      = ∑ l : Fin 256, A (ix2 p l) * B (ix2 l c) := by
  refine (Ideal.matmul_constant_zero_apply dot_S5000x256_S256x256_S5000x256_1_0_0_1_n_n none A B (ix2 p c)).trans ?_
  rw [← Equiv.sum_comp (contrEquiv1 dot_S5000x256_S256x256_S5000x256_1_0_0_1_n_n 256 rfl rfl).symm]
  refine Finset.sum_congr rfl fun l _ => ?_
  have hl := contrEquiv1_symm_val dot_S5000x256_S256x256_S5000x256_1_0_0_1_n_n 256 rfl rfl l
  have el : dot_S5000x256_S256x256_S5000x256_1_0_0_1_n_n.lhsIdx (ix2 p c) ((contrEquiv1 dot_S5000x256_S256x256_S5000x256_1_0_0_1_n_n 256 rfl rfl).symm l) = ix2 p l := funext fun a => Fin.ext (by
    match a with
    | ⟨0, _⟩ => exact edge_mm2_lhs0 _ _
    | ⟨1, _⟩ => exact (edge_mm2_lhs1 _ _).trans hl)
  have er : dot_S5000x256_S256x256_S5000x256_1_0_0_1_n_n.rhsIdx (ix2 p c) ((contrEquiv1 dot_S5000x256_S256x256_S5000x256_1_0_0_1_n_n 256 rfl rfl).symm l) = ix2 l c := funext fun a => Fin.ext (by
    match a with
    | ⟨0, _⟩ => exact (edge_mm2_rhs0 _ _).trans hl
    | ⟨1, _⟩ => exact edge_mm2_rhs1 _ _)
  rw [el, er]

/-! ## The bias rows at an index -/

/-- A bias vector of length 256, cast to one row and broadcast over the 5000 rows, reads at (p, c) the vector at c. -/
theorem edge_bias1_apply (b : FVec Ideal S256 .f32) (p : Fin 5000) (c : Fin 256) :
    broadcastTo S5000x256 (shapeCast S1x256 b shapeCasts_S256_S1x256) broadcasts_S1x256_S5000x256 (ix2 p c) = b (ix1 c) :=
  (broadcastTo_1b_ab_apply _ broadcasts_S1x256_S5000x256 p c).trans (shapeCast_a_1a_apply b shapeCasts_S256_S1x256 (0 : Fin 1) c)

/-! ## The hidden layer and the payload -/

/-- The hidden layer of the block: relu (X · W₁ + b₁), as the payload spells it. -/
def edgeHidden (X : Vec Ideal S5000x128 .f32) (W1 : Vec Ideal S128x256 .f32) (B1 : Vec Ideal S256 .f32) : FVec Ideal S5000x256 .f32 :=
  maximumf
    (addf
      (matmul dot_S5000x128_S128x256_S5000x256_1_0_0_1_n_n none
        (truncf .bf16 (shapeCast S5000x128 X shapeCasts_S5000x128_S5000x128) bitsLt_bf16_f32)
        (truncf .bf16 W1 bitsLt_bf16_f32) (constant S5000x256 .f32 0x00000000#32))
      (broadcastTo S5000x256 (shapeCast S1x256 B1 shapeCasts_S256_S1x256) broadcasts_S1x256_S5000x256))
    (broadcast S5000x256 (Scalar.ofBits .f32 0x00000000#32))

/-- At (p, k) the hidden layer is max (Σ_l X_{p,l} · W₁_{l,k} + b₁_k) 0: the narrowing and the identity cast read
    through, the product is the sum over the shared coordinate, the bias row is the bias at k, and the zero word
    denotes 0. -/
theorem edgeHidden_apply (X : Vec Ideal S5000x128 .f32) (W1 : Vec Ideal S128x256 .f32) (B1 : Vec Ideal S256 .f32) (p : Fin 5000) (k : Fin 256) :
    edgeHidden X W1 B1 (ix2 p k)
      = max ((∑ l : Fin 128, X (ix2 p l) * W1 (ix2 l k)) + B1 (ix1 k)) 0 := by
  unfold edgeHidden
  refine (maximumf_apply _ _ (ix2 p k)).trans ?_
  refine congrArg₂ max ?_ Ideal.ofBits_zero_f32
  refine (addf_apply _ _ (ix2 p k)).trans ?_
  refine congrArg₂ (· + ·) ?_ (edge_bias1_apply B1 p k)
  refine (edge_mm1_apply _ _ p k).trans ?_
  refine Finset.sum_congr rfl fun l _ => ?_
  rw [shapeCast_self]
  rfl

/-- The payload is the second product of the narrowed hidden layer, plus the second bias row. -/
theorem k0_pay1_eq (X : Vec Ideal S5000x128 .f32) (W1 : Vec Ideal S128x256 .f32) (B1 : Vec Ideal S256 .f32)
    (W2 : Vec Ideal S256x256 .f32) (B2 : Vec Ideal S256 .f32) :
    k0_pay1 (F := Ideal) X W1 B1 W2 B2
      = addf
          (matmul dot_S5000x256_S256x256_S5000x256_1_0_0_1_n_n none (truncf .bf16 (edgeHidden X W1 B1) bitsLt_bf16_f32)
            (truncf .bf16 W2 bitsLt_bf16_f32) (constant S5000x256 .f32 0x00000000#32))
          (broadcastTo S5000x256 (shapeCast S1x256 B2 shapeCasts_S256_S1x256) broadcasts_S1x256_S5000x256) := rfl

/-- THE PAYLOAD AT (p, q): the specification's row formula on row p of the block. -/
theorem edge_pay_apply (X : Vec Ideal S5000x128 .f32) (W1 : Vec Ideal S128x256 .f32) (B1 : Vec Ideal S256 .f32)
    (W2 : Vec Ideal S256x256 .f32) (B2 : Vec Ideal S256 .f32) (p : Fin 5000) (q : Fin 256) :
    k0_pay1 (F := Ideal) X W1 B1 W2 B2 (ix2 p q)
      = Cert.Mlp.row (fun l : Fin 128 => X (ix2 p l)) (fun (l : Fin 128) (k : Fin 256) => W1 (ix2 l k)) (fun k : Fin 256 => B1 (ix1 k))
          (fun (k : Fin 256) (j : Fin 256) => W2 (ix2 k j)) (fun j : Fin 256 => B2 (ix1 j)) q := by
  rw [k0_pay1_eq]
  unfold Cert.Mlp.row
  refine (addf_apply _ _ (ix2 p q)).trans ?_
  refine congrArg₂ (· + ·) ?_ (edge_bias1_apply B2 p q)
  refine (edge_mm2_apply _ _ p q).trans ?_
  refine Finset.sum_congr rfl fun k _ => ?_
  refine congrArg₂ (· * ·) ?_ rfl
  exact edgeHidden_apply X W1 B1 p k

end Cert.KernelIdeal.Pay

end
-- ==== Proof.IdealEdgeValue.lean ====
/-
  What the edge launch leaves in its output array, at the ideal instance.  Point `t` of the grid is handed rows
  5000·t … 5000·t + 4999 of the gathered features and writes back rows 5000·t … 5000·t + 4999 of the output, each
  the perceptron of the corresponding input row with the whole weight matrices and biases; the 160 blocks tile the
  800000 rows.  So the output array ends holding, at row `e` and column `q`, the perceptron row formula of row
  `e` of the features — one function (`messages`) of the arrays the launch was entered with.
-/
import proofs.«130831_j7138235646189_1_alg».proof.Proof.IdealEdgeBody
import proofs.«130831_j7138235646189_1_alg».proof.Proof.PayEdge
import Idealize.ShloMosaic.Lib.Pipeline.Value
import Idealize.ShloMosaic.Lib.ValueIdx

noncomputable section

namespace Cert.KernelIdeal.EdgeValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The edge messages as one function of the feature array, the weights and the biases: row `e`, column `q` is the
    perceptron of feature row `e` at column `q`. -/
def messages (X : S800000x128.Idx → EReal) (W1 : S128x256.Idx → EReal) (B1 : S256.Idx → EReal) (W2 : S256x256.Idx → EReal)
    (B2 : S256.Idx → EReal) : S800000x256.Idx → EReal :=
  fun i => Cert.Mlp.row (fun l : Fin 128 => X (ix2 (⟨(i 0).val, (i 0).isLt⟩ : Fin 800000) l)) (fun (l : Fin 128) (k : Fin 256) => W1 (ix2 l k))
    (fun k : Fin 256 => B1 (ix1 k)) (fun (k : Fin 256) (j : Fin 256) => W2 (ix2 k j)) (fun j : Fin 256 => B2 (ix1 j)) (⟨(i 1).val, (i 1).isLt⟩ : Fin 256)

theorem messages_apply (X : S800000x128.Idx → EReal) (W1 : S128x256.Idx → EReal) (B1 : S256.Idx → EReal) (W2 : S256x256.Idx → EReal)
    (B2 : S256.Idx → EReal) (e : Fin 800000) (q : Fin 256) :
    messages X W1 B1 W2 B2 (ix2 e q) = Cert.Mlp.row (fun l : Fin 128 => X (ix2 e l)) (fun (l : Fin 128) (k : Fin 256) => W1 (ix2 l k))
      (fun k : Fin 256 => B1 (ix1 k)) (fun (k : Fin 256) (j : Fin 256) => W2 (ix2 k j)) (fun j : Fin 256 => B2 (ix1 j)) q := rfl

/-! ## The index maps over the grid -/

/-- The feature window and the output window move one block of rows per point; the weight and bias windows stay at
    block zero (decided over the 160 points). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 160 := lt_of_lt_of_eq t.isLt N_0

/-- Row `p` of point `t`'s block is row `5000·t + p` of the array. -/
def rowOf (t : Fin cfg0.N) (p : Fin 5000) : Fin 800000 := ⟨t.val * 5000 + p.val, by have := point_lt t; have := p.isLt; omega⟩

theorem hz2 : (![0, 0] : Fin 2 → Nat) = fun _ => 0 := funext fun a => by fin_cases a <;> rfl
theorem hz1 : (![0] : Fin 1 → Nat) = fun _ => 0 := funext fun a => by fin_cases a; rfl

/-! ## The blocks read where the output's rectangle says -/

theorem features_at (c : Dev nD) (t : Fin cfg0.N) (p : Fin 5000) (l : Fin 128) :
    Edge.blockAt V c 0 t (ix2 p l) = V c main_v10 (ix2 (rowOf t p) l) := by
  show V c main_v10 (((cfg0.win 0).blk t).view.emb (ix2 p l)) = V c main_v10 _
  refine congrArg (V c main_v10) ?_
  obtain ⟨e0, e1, -⟩ := index_facts t
  funext a; apply Fin.ext
  match a with
  | ⟨0, _⟩ => show win0_0.index t (0 : Fin 2) * 5000 + 1 * p.val = t.val * 5000 + p.val; omega
  | ⟨1, _⟩ => show win0_0.index t (1 : Fin 2) * 128 + 1 * l.val = l.val; omega

theorem w1_at (c : Dev nD) (t : Fin cfg0.N) (l : Fin 128) (k : Fin 256) :
    Edge.blockAt V c 1 t (ix2 l k) = V c main_arg4 (ix2 l k) := by
  show V c main_arg4 (((cfg0.win 1).blk t).view.emb (ix2 l k)) = V c main_arg4 _
  refine congrArg (V c main_arg4) ?_
  obtain ⟨-, -, e0, e1, -⟩ := index_facts t
  funext a; apply Fin.ext
  match a with
  | ⟨0, _⟩ => show win0_1.index t (0 : Fin 2) * 128 + 1 * l.val = l.val; omega
  | ⟨1, _⟩ => show win0_1.index t (1 : Fin 2) * 256 + 1 * k.val = k.val; omega

theorem b1_at (c : Dev nD) (t : Fin cfg0.N) (k : Fin 256) :
    Edge.blockAt V c 2 t (ix1 k) = V c main_arg5 (ix1 k) := by
  show V c main_arg5 (((cfg0.win 2).blk t).view.emb (ix1 k)) = V c main_arg5 _
  refine congrArg (V c main_arg5) ?_
  obtain ⟨-, -, -, -, e0, -⟩ := index_facts t
  funext a; apply Fin.ext
  match a with
  | ⟨0, _⟩ => show win0_2.index t (0 : Fin 1) * 256 + 1 * k.val = k.val; omega

theorem w2_at (c : Dev nD) (t : Fin cfg0.N) (k : Fin 256) (j : Fin 256) :
    Edge.blockAt V c 3 t (ix2 k j) = V c main_arg6 (ix2 k j) := by
  show V c main_arg6 (((cfg0.win 3).blk t).view.emb (ix2 k j)) = V c main_arg6 _
  refine congrArg (V c main_arg6) ?_
  obtain ⟨-, -, -, -, -, e0, e1, -⟩ := index_facts t
  funext a; apply Fin.ext
  match a with
  | ⟨0, _⟩ => show win0_3.index t (0 : Fin 2) * 256 + 1 * k.val = k.val; omega
  | ⟨1, _⟩ => show win0_3.index t (1 : Fin 2) * 256 + 1 * j.val = j.val; omega

theorem b2_at (c : Dev nD) (t : Fin cfg0.N) (j : Fin 256) :
    Edge.blockAt V c 4 t (ix1 j) = V c main_arg7 (ix1 j) := by
  show V c main_arg7 (((cfg0.win 4).blk t).view.emb (ix1 j)) = V c main_arg7 _
  refine congrArg (V c main_arg7) ?_
  obtain ⟨-, -, -, -, -, -, -, e0, -⟩ := index_facts t
  funext a; apply Fin.ext
  match a with
  | ⟨0, _⟩ => show win0_4.index t (0 : Fin 1) * 256 + 1 * j.val = j.val; omega

/-- Element `(p, q)` of the output's block at point `t` sits at row `5000·t + p`, column `q` of the array. -/
theorem out_at (t : Fin cfg0.N) (p : Fin 5000) (q : Fin 256) :
    ((cfg0.win 5).blk t).view.emb (ix2 p q) = ix2 (rowOf t p) q := by
  obtain ⟨-, -, -, -, -, -, -, -, e0, e1⟩ := index_facts t
  funext a; apply Fin.ext
  match a with
  | ⟨0, _⟩ => show win0_5.index t (0 : Fin 2) * 5000 + 1 * p.val = t.val * 5000 + p.val; omega
  | ⟨1, _⟩ => show win0_5.index t (1 : Fin 2) * 256 + 1 * q.val = q.val; omega

/-! ## What a point writes back, and the array after the launch -/

/-- What point `t` writes back is block `t` of `messages` of the arrays as the launch finds them. -/
theorem wrote (c : Dev nD) (t : Fin cfg0.N) :
    (Edge.dat (F := Ideal) V c).flushed 5 t = ((cfg0.win 5).blk t).view.read (Elt Ideal)
      (messages (V c main_v10) (V c main_arg4) (V c main_arg5) (V c main_arg6) (V c main_arg7)) := by
  show (cfg0.win 5).cut (grid0.coords t) ((Edge.dat (F := Ideal) V c).after 5 t) = _
  rw [Edge.after_out]
  unfold Edge.stored
  rw [View.canon_unit_zero hz2]
  simp only [View.ld_unit_zero (S := S5000x128) hz2, View.ld_unit_zero (S := S128x256) hz2, View.ld_unit_zero (S := S256) hz1,
    View.ld_unit_zero (S := S256x256) hz2]
  funext j
  obtain ⟨p, q, rfl⟩ : ∃ (p : Fin 5000) (q : Fin 256), j = ix2 p q := ⟨j 0, j 1, eq_ix2 j⟩
  show k0_pay1 (F := Ideal) (Edge.blockAt V c 0 t) (Edge.blockAt V c 1 t) (Edge.blockAt V c 2 t) (Edge.blockAt V c 3 t) (Edge.blockAt V c 4 t) (ix2 p q)
    = messages (V c main_v10) (V c main_arg4) (V c main_arg5) (V c main_arg6) (V c main_arg7) (((cfg0.win 5).blk t).view.emb (ix2 p q))
  rw [out_at t p q, messages_apply]
  refine (Pay.edge_pay_apply _ _ _ _ _ p q).trans ?_
  simp only [features_at V c t, w1_at V c t, b1_at V c t, w2_at V c t, b2_at V c t]

/-- An index of the array is in point `t`'s block iff each coordinate is in the block's range on its axis. -/
theorem mem_block (t : Fin cfg0.N) (i : S800000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v11).slice (win0_5.rect t)).set ↔ _
  rw [View.set_slice_whole, Rect.mem_set_unit]
  exact Iff.rfl

/-- The 160 blocks of 5000 rows cover the 800000 rows: row `r` is in the block of point `r / 5000`. -/
theorem covered (i : S800000x256.Idx) : ∃ t : Fin cfg0.N, (cfg0.win 5).flush t = true ∧ i ∈ ((cfg0.win 5).blk t).view.set := by
  have hi0 : (i 0).val < 800000 := (i 0).isLt
  have hi1 : (i 1).val < 256 := (i 1).isLt
  have hN : (i 0).val / 5000 < cfg0.N := by show _ < grid0.N; rw [N_0]; omega
  obtain ⟨-, -, -, -, -, -, -, -, e0, e1⟩ := index_facts ⟨(i 0).val / 5000, hN⟩
  refine ⟨⟨(i 0).val / 5000, hN⟩, flush0_5 _, ?_⟩
  rw [mem_block]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 256 ≤ (i 1).val ∧ (i 1).val < win0_5.index ⟨(i 0).val / 5000, hN⟩ (1 : Fin 2) * 256 + 256
    rw [e1]; omega

/-- THE OUTPUT ARRAY after the edge launch: `messages` of the arrays the launch was entered with. -/
theorem result (c : Dev nD) :
    (Edge.dat (F := Ideal) V c).arrAt 5 cfg0.N = messages (V c main_v10) (V c main_arg4) (V c main_arg5) (V c main_arg6) (V c main_arg7) :=
  (Edge.dat (F := Ideal) V c).arrAt_eq_of_cover 5 _ (fun t _ => wrote V c t) covered

end Cert.KernelIdeal.EdgeValue

end
-- ==== Proof.PayNode.lean ====
/-
  The node kernel's block payload read at one element.  On a block of 2000 rows the body computes
  relu (Z · W₃ + b₃) · W₄ + b₄.  On the extended reals the narrowing of a product's operands is the identity and each
  product accumulates into zero, so the element at row p and column q is the specification's row formula applied to
  row p of Z: each matrix product is read at an index as the sum over the contracted axis' one coordinate, each bias
  row as the bias vector at the column, and the pointwise operations elementwise.
-/
import proofs.«130831_j7138235646189_1_alg».proof.Proof.Gen.KernelIdeal.Skeleton
import proofs.«130831_j7138235646189_1_alg».proof.Proof.MlpRow
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen
open scoped BigOperators

variable [Cert.KernelIdeal.Facts]

/-! ## The two matrix products at an index -/

/-- Along a row axis the left operand of the first product keeps the output's row. -/
theorem node_mm1_lhs0 (i : S2000x256.Idx) (t : dot_S2000x448_S448x256_S2000x256_1_0_0_1_n_n.contr.Idx) :
    (dot_S2000x448_S448x256_S2000x256_1_0_0_1_n_n.lhsIdx i t 0).val = (i 0).val := by
  unfold DotDims.lhsIdx
  rw [dif_neg (show ¬(0 : Fin S2000x448.rank) ∈ dot_S2000x448_S448x256_S2000x256_1_0_0_1_n_n.lhsBatch by decide), dif_pos (show (0 : Fin S2000x448.rank) ∈ dot_S2000x448_S448x256_S2000x256_1_0_0_1_n_n.lhsNonContracting by decide)]
  rfl
/-- Its column is the contracted coordinate. -/
theorem node_mm1_lhs1 (i : S2000x256.Idx) (t : dot_S2000x448_S448x256_S2000x256_1_0_0_1_n_n.contr.Idx) :
    (dot_S2000x448_S448x256_S2000x256_1_0_0_1_n_n.lhsIdx i t 1).val = (t ⟨0, by decide⟩).val :=
  dot_S2000x448_S448x256_S2000x256_1_0_0_1_n_n.lhsIdx_val_of_single rfl i t
/-- The right operand's row is the contracted coordinate. -/
theorem node_mm1_rhs0 (i : S2000x256.Idx) (t : dot_S2000x448_S448x256_S2000x256_1_0_0_1_n_n.contr.Idx) :
    (dot_S2000x448_S448x256_S2000x256_1_0_0_1_n_n.rhsIdx i t 0).val = (t ⟨0, by decide⟩).val :=
  dot_S2000x448_S448x256_S2000x256_1_0_0_1_n_n.rhsIdx_val_of_single rfl i t
/-- Its column is the output's column. -/
theorem node_mm1_rhs1 (i : S2000x256.Idx) (t : dot_S2000x448_S448x256_S2000x256_1_0_0_1_n_n.contr.Idx) :
    (dot_S2000x448_S448x256_S2000x256_1_0_0_1_n_n.rhsIdx i t 1).val = (i 1).val := by
  unfold DotDims.rhsIdx
  rw [dif_neg (show ¬(1 : Fin S448x256.rank) ∈ dot_S2000x448_S448x256_S2000x256_1_0_0_1_n_n.rhsBatch by decide), dif_pos (show (1 : Fin S448x256.rank) ∈ dot_S2000x448_S448x256_S2000x256_1_0_0_1_n_n.rhsNonContracting by decide)]
  rfl

/-- The first product, [2000,448] × [448,256] accumulated into zero, at (p, c): the sum over the 448 shared coordinates of
    the left operand's row p times the right operand's column c. -/
theorem node_mm1_apply (A : FVec Ideal S2000x448 .bf16) (B : FVec Ideal S448x256 .bf16) (p : Fin 2000) (c : Fin 256) :
    matmul dot_S2000x448_S448x256_S2000x256_1_0_0_1_n_n none A B (constant (F := Ideal) S2000x256 .f32 0x00000000#32) (ix2 p c)
      = ∑ l : Fin 448, A (ix2 p l) * B (ix2 l c) := by
  refine (Ideal.matmul_constant_zero_apply dot_S2000x448_S448x256_S2000x256_1_0_0_1_n_n none A B (ix2 p c)).trans ?_
  rw [← Equiv.sum_comp (contrEquiv1 dot_S2000x448_S448x256_S2000x256_1_0_0_1_n_n 448 rfl rfl).symm]
  refine Finset.sum_congr rfl fun l _ => ?_
  have hl := contrEquiv1_symm_val dot_S2000x448_S448x256_S2000x256_1_0_0_1_n_n 448 rfl rfl l
  have el : dot_S2000x448_S448x256_S2000x256_1_0_0_1_n_n.lhsIdx (ix2 p c) ((contrEquiv1 dot_S2000x448_S448x256_S2000x256_1_0_0_1_n_n 448 rfl rfl).symm l) = ix2 p l := funext fun a => Fin.ext (by
    match a with
    | ⟨0, _⟩ => exact node_mm1_lhs0 _ _
    | ⟨1, _⟩ => exact (node_mm1_lhs1 _ _).trans hl)
  have er : dot_S2000x448_S448x256_S2000x256_1_0_0_1_n_n.rhsIdx (ix2 p c) ((contrEquiv1 dot_S2000x448_S448x256_S2000x256_1_0_0_1_n_n 448 rfl rfl).symm l) = ix2 l c := funext fun a => Fin.ext (by
    match a with
    | ⟨0, _⟩ => exact (node_mm1_rhs0 _ _).trans hl
    | ⟨1, _⟩ => exact node_mm1_rhs1 _ _)
  rw [el, er]

/-- Along a row axis the left operand of the second product keeps the output's row. -/
theorem node_mm2_lhs0 (i : S2000x128.Idx) (t : dot_S2000x256_S256x128_S2000x128_1_0_0_1_n_n.contr.Idx) :
    (dot_S2000x256_S256x128_S2000x128_1_0_0_1_n_n.lhsIdx i t 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- Its column is the contracted coordinate. -/
theorem node_mm2_lhs1 (i : S2000x128.Idx) (t : dot_S2000x256_S256x128_S2000x128_1_0_0_1_n_n.contr.Idx) :
    (dot_S2000x256_S256x128_S2000x128_1_0_0_1_n_n.lhsIdx i t 1).val = (t ⟨0, by decide⟩).val :=
  dot_S2000x256_S256x128_S2000x128_1_0_0_1_n_n.lhsIdx_val_of_single rfl i t
/-- The right operand's row is the contracted coordinate. -/
theorem node_mm2_rhs0 (i : S2000x128.Idx) (t : dot_S2000x256_S256x128_S2000x128_1_0_0_1_n_n.contr.Idx) :
    (dot_S2000x256_S256x128_S2000x128_1_0_0_1_n_n.rhsIdx i t 0).val = (t ⟨0, by decide⟩).val :=
  dot_S2000x256_S256x128_S2000x128_1_0_0_1_n_n.rhsIdx_val_of_single rfl i t
/-- Its column is the output's column. -/
theorem node_mm2_rhs1 (i : S2000x128.Idx) (t : dot_S2000x256_S256x128_S2000x128_1_0_0_1_n_n.contr.Idx) :
    (dot_S2000x256_S256x128_S2000x128_1_0_0_1_n_n.rhsIdx i t 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The second product, [2000,256] × [256,128] accumulated into zero, at (p, c): the sum over the 256 shared coordinates of
    the left operand's row p times the right operand's column c. -/
theorem node_mm2_apply (A : FVec Ideal S2000x256 .bf16) (B : FVec Ideal S256x128 .bf16) (p : Fin 2000) (c : Fin 128) :
    matmul dot_S2000x256_S256x128_S2000x128_1_0_0_1_n_n none A B (constant (F := Ideal) S2000x128 .f32 0x00000000#32) (ix2 p c)
      = ∑ l : Fin 256, A (ix2 p l) * B (ix2 l c) := by
  refine (Ideal.matmul_constant_zero_apply dot_S2000x256_S256x128_S2000x128_1_0_0_1_n_n none A B (ix2 p c)).trans ?_
  rw [← Equiv.sum_comp (contrEquiv1 dot_S2000x256_S256x128_S2000x128_1_0_0_1_n_n 256 rfl rfl).symm]
  refine Finset.sum_congr rfl fun l _ => ?_
  have hl := contrEquiv1_symm_val dot_S2000x256_S256x128_S2000x128_1_0_0_1_n_n 256 rfl rfl l
  have el : dot_S2000x256_S256x128_S2000x128_1_0_0_1_n_n.lhsIdx (ix2 p c) ((contrEquiv1 dot_S2000x256_S256x128_S2000x128_1_0_0_1_n_n 256 rfl rfl).symm l) = ix2 p l := funext fun a => Fin.ext (by
    match a with
    | ⟨0, _⟩ => exact node_mm2_lhs0 _ _
    | ⟨1, _⟩ => exact (node_mm2_lhs1 _ _).trans hl)
  have er : dot_S2000x256_S256x128_S2000x128_1_0_0_1_n_n.rhsIdx (ix2 p c) ((contrEquiv1 dot_S2000x256_S256x128_S2000x128_1_0_0_1_n_n 256 rfl rfl).symm l) = ix2 l c := funext fun a => Fin.ext (by
    match a with
    | ⟨0, _⟩ => exact (node_mm2_rhs0 _ _).trans hl
    | ⟨1, _⟩ => exact node_mm2_rhs1 _ _)
  rw [el, er]

/-! ## The bias rows at an index -/

/-- A bias vector of length 256, cast to one row and broadcast over the 2000 rows, reads at (p, c) the vector at c. -/
theorem node_bias1_apply (b : FVec Ideal S256 .f32) (p : Fin 2000) (c : Fin 256) :
    broadcastTo S2000x256 (shapeCast S1x256 b shapeCasts_S256_S1x256) broadcasts_S1x256_S2000x256 (ix2 p c) = b (ix1 c) :=
  (broadcastTo_1b_ab_apply _ broadcasts_S1x256_S2000x256 p c).trans (shapeCast_a_1a_apply b shapeCasts_S256_S1x256 (0 : Fin 1) c)

/-- A bias vector of length 128, cast to one row and broadcast over the 2000 rows, reads at (p, c) the vector at c. -/
theorem node_bias2_apply (b : FVec Ideal S128 .f32) (p : Fin 2000) (c : Fin 128) :
    broadcastTo S2000x128 (shapeCast S1x128 b shapeCasts_S128_S1x128) broadcasts_S1x128_S2000x128 (ix2 p c) = b (ix1 c) :=
  (broadcastTo_1b_ab_apply _ broadcasts_S1x128_S2000x128 p c).trans (shapeCast_a_1a_apply b shapeCasts_S128_S1x128 (0 : Fin 1) c)

/-! ## The hidden layer and the payload -/

/-- The hidden layer of the block: relu (Z · W₃ + b₃), as the payload spells it. -/
def nodeHidden (Z : Vec Ideal S2000x448 .f32) (W3 : Vec Ideal S448x256 .f32) (B3 : Vec Ideal S256 .f32) : FVec Ideal S2000x256 .f32 :=
  maximumf
    (addf
      (matmul dot_S2000x448_S448x256_S2000x256_1_0_0_1_n_n none
        (truncf .bf16 (shapeCast S2000x448 Z shapeCasts_S2000x448_S2000x448) bitsLt_bf16_f32)
        (truncf .bf16 W3 bitsLt_bf16_f32) (constant S2000x256 .f32 0x00000000#32))
      (broadcastTo S2000x256 (shapeCast S1x256 B3 shapeCasts_S256_S1x256) broadcasts_S1x256_S2000x256))
    (broadcast S2000x256 (Scalar.ofBits .f32 0x00000000#32))

/-- At (p, k) the hidden layer is max (Σ_l Z_{p,l} · W₃_{l,k} + b₃_k) 0: the narrowing and the identity cast read
    through, the product is the sum over the shared coordinate, the bias row is the bias at k, and the zero word
    denotes 0. -/
theorem nodeHidden_apply (Z : Vec Ideal S2000x448 .f32) (W3 : Vec Ideal S448x256 .f32) (B3 : Vec Ideal S256 .f32) (p : Fin 2000) (k : Fin 256) :
    nodeHidden Z W3 B3 (ix2 p k)
      = max ((∑ l : Fin 448, Z (ix2 p l) * W3 (ix2 l k)) + B3 (ix1 k)) 0 := by
  unfold nodeHidden
  refine (maximumf_apply _ _ (ix2 p k)).trans ?_
  refine congrArg₂ max ?_ Ideal.ofBits_zero_f32
  refine (addf_apply _ _ (ix2 p k)).trans ?_
  refine congrArg₂ (· + ·) ?_ (node_bias1_apply B3 p k)
  refine (node_mm1_apply _ _ p k).trans ?_
  refine Finset.sum_congr rfl fun l _ => ?_
  rw [shapeCast_self]
  rfl

/-- The payload is the second product of the narrowed hidden layer, plus the second bias row. -/
theorem k1_pay1_eq (Z : Vec Ideal S2000x448 .f32) (W3 : Vec Ideal S448x256 .f32) (B3 : Vec Ideal S256 .f32)
    (W4 : Vec Ideal S256x128 .f32) (B4 : Vec Ideal S128 .f32) :
    k1_pay1 (F := Ideal) Z W3 B3 W4 B4
      = addf
          (matmul dot_S2000x256_S256x128_S2000x128_1_0_0_1_n_n none (truncf .bf16 (nodeHidden Z W3 B3) bitsLt_bf16_f32)
            (truncf .bf16 W4 bitsLt_bf16_f32) (constant S2000x128 .f32 0x00000000#32))
          (broadcastTo S2000x128 (shapeCast S1x128 B4 shapeCasts_S128_S1x128) broadcasts_S1x128_S2000x128) := rfl

/-- THE PAYLOAD AT (p, q): the specification's row formula on row p of the block. -/
theorem node_pay_apply (Z : Vec Ideal S2000x448 .f32) (W3 : Vec Ideal S448x256 .f32) (B3 : Vec Ideal S256 .f32)
    (W4 : Vec Ideal S256x128 .f32) (B4 : Vec Ideal S128 .f32) (p : Fin 2000) (q : Fin 128) :
    k1_pay1 (F := Ideal) Z W3 B3 W4 B4 (ix2 p q)
      = Cert.Mlp.row (fun l : Fin 448 => Z (ix2 p l)) (fun (l : Fin 448) (k : Fin 256) => W3 (ix2 l k)) (fun k : Fin 256 => B3 (ix1 k))
          (fun (k : Fin 256) (j : Fin 128) => W4 (ix2 k j)) (fun j : Fin 128 => B4 (ix1 j)) q := by
  rw [k1_pay1_eq]
  unfold Cert.Mlp.row
  refine (addf_apply _ _ (ix2 p q)).trans ?_
  refine congrArg₂ (· + ·) ?_ (node_bias2_apply B4 p q)
  refine (node_mm2_apply _ _ p q).trans ?_
  refine Finset.sum_congr rfl fun k _ => ?_
  refine congrArg₂ (· * ·) ?_ rfl
  exact nodeHidden_apply Z W3 B3 p k

end Cert.KernelIdeal.Pay

end
-- ==== Proof.IdealNodeValue.lean ====
/-
  What the node launch leaves in its output array, at the ideal instance.  Point `t` of the grid is handed rows
  2000·t … 2000·t + 1999 of the concatenated node features and writes back rows 2000·t … 2000·t + 1999 of the output,
  each the perceptron of the corresponding input row with the whole weight matrices and biases; the 25 blocks tile
  the 50000 rows.  So the output array ends holding, at row `n` and column `q`, the perceptron row formula of row
  `n` of the concatenated features — one function (`updated`) of the arrays the launch was entered with.
-/
import proofs.«130831_j7138235646189_1_alg».proof.Proof.IdealNodeBody
import proofs.«130831_j7138235646189_1_alg».proof.Proof.PayNode
import Idealize.ShloMosaic.Lib.Pipeline.Value
import Idealize.ShloMosaic.Lib.ValueIdx

noncomputable section

namespace Cert.KernelIdeal.NodeValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The updated node features as one function of the concatenated feature array, the weights and the biases: row
    `n`, column `q` is the perceptron of feature row `n` at column `q`. -/
def updated (Z : S50000x448.Idx → EReal) (W3 : S448x256.Idx → EReal) (B3 : S256.Idx → EReal) (W4 : S256x128.Idx → EReal)
    (B4 : S128.Idx → EReal) : S50000x128.Idx → EReal :=
  fun i => Cert.Mlp.row (fun l : Fin 448 => Z (ix2 (⟨(i 0).val, (i 0).isLt⟩ : Fin 50000) l)) (fun (l : Fin 448) (k : Fin 256) => W3 (ix2 l k))
    (fun k : Fin 256 => B3 (ix1 k)) (fun (k : Fin 256) (j : Fin 128) => W4 (ix2 k j)) (fun j : Fin 128 => B4 (ix1 j)) (⟨(i 1).val, (i 1).isLt⟩ : Fin 128)

theorem updated_apply (Z : S50000x448.Idx → EReal) (W3 : S448x256.Idx → EReal) (B3 : S256.Idx → EReal) (W4 : S256x128.Idx → EReal)
    (B4 : S128.Idx → EReal) (n : Fin 50000) (q : Fin 128) :
    updated Z W3 B3 W4 B4 (ix2 n q) = Cert.Mlp.row (fun l : Fin 448 => Z (ix2 n l)) (fun (l : Fin 448) (k : Fin 256) => W3 (ix2 l k))
      (fun k : Fin 256 => B3 (ix1 k)) (fun (k : Fin 256) (j : Fin 128) => W4 (ix2 k j)) (fun j : Fin 128 => B4 (ix1 j)) q := rfl

/-! ## The index maps over the grid -/

/-- The feature window and the output window move one block of rows per point; the weight and bias windows stay at
    block zero (decided over the 25 points). -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem point_lt (t : Fin cfg1.N) : t.val < 25 := lt_of_lt_of_eq t.isLt N_1

/-- Row `p` of point `t`'s block is row `2000·t + p` of the array. -/
def rowOf (t : Fin cfg1.N) (p : Fin 2000) : Fin 50000 := ⟨t.val * 2000 + p.val, by have := point_lt t; have := p.isLt; omega⟩

theorem hz2 : (![0, 0] : Fin 2 → Nat) = fun _ => 0 := funext fun a => by fin_cases a <;> rfl
theorem hz1 : (![0] : Fin 1 → Nat) = fun _ => 0 := funext fun a => by fin_cases a; rfl

/-! ## The blocks read where the output's rectangle says -/

theorem features_at (c : Dev nD) (t : Fin cfg1.N) (p : Fin 2000) (l : Fin 448) :
    Node.blockAt V c 0 t (ix2 p l) = V c main_v31 (ix2 (rowOf t p) l) := by
  show V c main_v31 (((cfg1.win 0).blk t).view.emb (ix2 p l)) = V c main_v31 _
  refine congrArg (V c main_v31) ?_
  obtain ⟨e0, e1, -⟩ := index_facts t
  funext a; apply Fin.ext
  match a with
  | ⟨0, _⟩ => show win1_0.index t (0 : Fin 2) * 2000 + 1 * p.val = t.val * 2000 + p.val; omega
  | ⟨1, _⟩ => show win1_0.index t (1 : Fin 2) * 448 + 1 * l.val = l.val; omega

theorem w3_at (c : Dev nD) (t : Fin cfg1.N) (l : Fin 448) (k : Fin 256) :
    Node.blockAt V c 1 t (ix2 l k) = V c main_arg8 (ix2 l k) := by
  show V c main_arg8 (((cfg1.win 1).blk t).view.emb (ix2 l k)) = V c main_arg8 _
  refine congrArg (V c main_arg8) ?_
  obtain ⟨-, -, e0, e1, -⟩ := index_facts t
  funext a; apply Fin.ext
  match a with
  | ⟨0, _⟩ => show win1_1.index t (0 : Fin 2) * 448 + 1 * l.val = l.val; omega
  | ⟨1, _⟩ => show win1_1.index t (1 : Fin 2) * 256 + 1 * k.val = k.val; omega

theorem b3_at (c : Dev nD) (t : Fin cfg1.N) (k : Fin 256) :
    Node.blockAt V c 2 t (ix1 k) = V c main_arg9 (ix1 k) := by
  show V c main_arg9 (((cfg1.win 2).blk t).view.emb (ix1 k)) = V c main_arg9 _
  refine congrArg (V c main_arg9) ?_
  obtain ⟨-, -, -, -, e0, -⟩ := index_facts t
  funext a; apply Fin.ext
  match a with
  | ⟨0, _⟩ => show win1_2.index t (0 : Fin 1) * 256 + 1 * k.val = k.val; omega

theorem w4_at (c : Dev nD) (t : Fin cfg1.N) (k : Fin 256) (j : Fin 128) :
    Node.blockAt V c 3 t (ix2 k j) = V c main_arg10 (ix2 k j) := by
  show V c main_arg10 (((cfg1.win 3).blk t).view.emb (ix2 k j)) = V c main_arg10 _
  refine congrArg (V c main_arg10) ?_
  obtain ⟨-, -, -, -, -, e0, e1, -⟩ := index_facts t
  funext a; apply Fin.ext
  match a with
  | ⟨0, _⟩ => show win1_3.index t (0 : Fin 2) * 256 + 1 * k.val = k.val; omega
  | ⟨1, _⟩ => show win1_3.index t (1 : Fin 2) * 128 + 1 * j.val = j.val; omega

theorem b4_at (c : Dev nD) (t : Fin cfg1.N) (j : Fin 128) :
    Node.blockAt V c 4 t (ix1 j) = V c main_arg11 (ix1 j) := by
  show V c main_arg11 (((cfg1.win 4).blk t).view.emb (ix1 j)) = V c main_arg11 _
  refine congrArg (V c main_arg11) ?_
  obtain ⟨-, -, -, -, -, -, -, e0, -⟩ := index_facts t
  funext a; apply Fin.ext
  match a with
  | ⟨0, _⟩ => show win1_4.index t (0 : Fin 1) * 128 + 1 * j.val = j.val; omega

/-- Element `(p, q)` of the output's block at point `t` sits at row `2000·t + p`, column `q` of the array. -/
theorem out_at (t : Fin cfg1.N) (p : Fin 2000) (q : Fin 128) :
    ((cfg1.win 5).blk t).view.emb (ix2 p q) = ix2 (rowOf t p) q := by
  obtain ⟨-, -, -, -, -, -, -, -, e0, e1⟩ := index_facts t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-! ## What a point writes back, and the array after the launch -/

/-- What point `t` writes back is block `t` of `updated` of the arrays as the launch finds them. -/
theorem wrote (c : Dev nD) (t : Fin cfg1.N) :
    (Node.dat (F := Ideal) V c).flushed 5 t = ((cfg1.win 5).blk t).view.read (Elt Ideal)
      (updated (V c main_v31) (V c main_arg8) (V c main_arg9) (V c main_arg10) (V c main_arg11)) := by
  show (cfg1.win 5).cut (grid1.coords t) ((Node.dat (F := Ideal) V c).after 5 t) = _
  rw [Node.after_out]
  unfold Node.stored
  rw [View.canon_unit_zero hz2]
  simp only [View.ld_unit_zero (S := S2000x448) hz2, View.ld_unit_zero (S := S448x256) hz2, View.ld_unit_zero (S := S256) hz1,
    View.ld_unit_zero (S := S256x128) hz2, View.ld_unit_zero (S := S128) hz1]
  funext j
  obtain ⟨p, q, rfl⟩ : ∃ (p : Fin 2000) (q : Fin 128), j = ix2 p q := ⟨j 0, j 1, eq_ix2 j⟩
  show k1_pay1 (F := Ideal) (Node.blockAt V c 0 t) (Node.blockAt V c 1 t) (Node.blockAt V c 2 t) (Node.blockAt V c 3 t) (Node.blockAt V c 4 t) (ix2 p q)
    = updated (V c main_v31) (V c main_arg8) (V c main_arg9) (V c main_arg10) (V c main_arg11) (((cfg1.win 5).blk t).view.emb (ix2 p q))
  rw [out_at t p q, updated_apply]
  refine (Pay.node_pay_apply _ _ _ _ _ p q).trans ?_
  simp only [features_at V c t, w3_at V c t, b3_at V c t, w4_at V c t, b4_at V c t]

/-- An index of the array is in point `t`'s block iff each coordinate is in the block's range on its axis. -/
theorem mem_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v32).slice (win1_5.rect t)).set ↔ _
  rw [View.set_slice_whole, Rect.mem_set_unit]
  exact Iff.rfl

/-- The 25 blocks of 2000 rows cover the 50000 rows: row `r` is in the block of point `r / 2000`. -/
theorem covered (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 2000 < cfg1.N := by show _ < grid1.N; rw [N_1]; omega
  obtain ⟨-, -, -, -, -, -, -, -, e0, e1⟩ := index_facts ⟨(i 0).val / 2000, hN⟩
  refine ⟨⟨(i 0).val / 2000, hN⟩, flush1_5 _, ?_⟩
  rw [mem_block]
  intro a
  match a with
  | ⟨0, _⟩ =>
    show win1_5.index ⟨(i 0).val / 2000, hN⟩ (0 : Fin 2) * 2000 ≤ (i 0).val ∧ (i 0).val < win1_5.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, hN⟩ (1 : Fin 2) * 128 ≤ (i 1).val ∧ (i 1).val < win1_5.index ⟨(i 0).val / 2000, hN⟩ (1 : Fin 2) * 128 + 128
    rw [e1]; omega

/-- THE OUTPUT ARRAY after the node launch: `updated` of the arrays the launch was entered with. -/
theorem result (c : Dev nD) :
    (Node.dat (F := Ideal) V c).arrAt 5 cfg1.N = updated (V c main_v31) (V c main_arg8) (V c main_arg9) (V c main_arg10) (V c main_arg11) :=
  (Node.dat (F := Ideal) V c).arrAt_eq_of_cover 5 _ (fun t _ => wrote V c t) covered

end Cert.KernelIdeal.NodeValue

end
-- ==== Proof.RefEdge.lean ====
/-
  The reference's edge perceptron read at one element.  The reference computes, for all 800000 edge rows at
  once, `relu (g · W₁ + b₁) · W₂ + b₂`, where `g` is the gathered array of node features (one row of 128
  features per edge).  Reading the last stage at row `e` and column `q` and following the stages back — the final
  bias addition, the second contraction, the maximum with the zero array, the first bias addition, the first
  contraction — gives exactly one row of the two-layer perceptron `Cert.Mlp.row` applied to row `e` of `g`.
  The gathered array itself is not opened: it enters only through its elements at row `e`.
-/
import proofs.«130831_j7138235646189_1_alg».proof.Proof.Gen.ReferenceIdeal.Read
import proofs.«130831_j7138235646189_1_alg».proof.Proof.MlpRow
import Idealize.ShloMosaic.Lib.ValueIdx
import Idealize.ShloMosaic.PureOps.Ideal.Laws

noncomputable section

namespace Cert.ReferenceIdeal.RefValue

open scoped BigOperators
open Idealize.ShloMosaic Idealize.ShloMosaic.ValueIdx Cert.ReferenceIdeal Cert.ReferenceIdeal.Read

variable [Cert.ReferenceIdeal.Facts]

/-! ### Which operand elements each stage reads at row `e`

A contraction's result at `(e, q)` reads the left operand at `(e, k)` and the right operand at `(k, q)`; a bias
vector broadcast along the rows is read at the column alone. -/

/-- The second contraction at `(e, q)` reads its left operand at `(e, k)`. -/
theorem edge_lidx16 (e : Fin 800000) (q k : Fin 256) : lidx_main_v16 (ix2 e q) k = ix2 e k := by
  funext a; match a with | ⟨0, _⟩ => rfl | ⟨1, _⟩ => rfl

/-- The second contraction at `(e, q)` reads its right operand at `(k, q)`. -/
theorem edge_ridx16 (e : Fin 800000) (q k : Fin 256) : ridx_main_v16 (ix2 e q) k = ix2 k q := by
  funext a; match a with | ⟨0, _⟩ => rfl | ⟨1, _⟩ => rfl

/-- The second bias, broadcast to every row, is read at column `q`. -/
theorem edge_idx18 (e : Fin 800000) (q : Fin 256) : idx_main_v17 (idx_main_v18 (ix2 e q)) = ix1 q := by
  funext a; match a with | ⟨0, _⟩ => rfl

/-- The first contraction at `(e, k)` reads its left operand at `(e, l)`. -/
theorem edge_lidx11 (e : Fin 800000) (k : Fin 256) (l : Fin 128) : lidx_main_v11 (ix2 e k) l = ix2 e l := by
  funext a; match a with | ⟨0, _⟩ => rfl | ⟨1, _⟩ => rfl

/-- The first contraction at `(e, k)` reads its right operand at `(l, k)`. -/
theorem edge_ridx11 (e : Fin 800000) (k : Fin 256) (l : Fin 128) : ridx_main_v11 (ix2 e k) l = ix2 l k := by
  funext a; match a with | ⟨0, _⟩ => rfl | ⟨1, _⟩ => rfl

/-- The first bias, broadcast to every row, is read at column `k`. -/
theorem edge_idx13 (e : Fin 800000) (k : Fin 256) : idx_main_v12 (idx_main_v13 (ix2 e k)) = ix1 k := by
  funext a; match a with | ⟨0, _⟩ => rfl

/-- The edge perceptron's output at row `e`, column `q` is the two-layer perceptron row formula applied to row
    `e` of the gathered features:
    `(Σ_k max (Σ_l g_{e,l} · W₁_{l,k} + b₁_k) 0 · W₂_{k,q}) + b₂_q`. -/
theorem ref_edge_apply (x0 : (⟨S50000x128, .f32⟩ : BufTy).Contents (Elt Ideal)) (x1 : (⟨S2x800000, .i32⟩ : BufTy).Contents (Elt Ideal))
    (x4 : (⟨S128x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal)) (e : Fin 800000) (q : Fin 256) :
    val_main_v19 (F := Ideal) x0 x1 x4 x5 x6 x7 (ix2 e q)
      = Cert.Mlp.row (fun l : Fin 128 => val_main_v10 (F := Ideal) x0 x1 (ix2 e l)) (fun (l : Fin 128) (k : Fin 256) => x4 (ix2 l k)) (fun k : Fin 256 => x5 (ix1 k))
          (fun (k : Fin 256) (j : Fin 256) => x6 (ix2 k j)) (fun j : Fin 256 => x7 (ix1 j)) q := by
  -- outer layer: the output is the second contraction plus the second bias at column `q`
  rw [val_main_v19_apply, val_main_v16_apply, val_main_v18_apply, val_main_v17_apply, edge_idx18]
  unfold Cert.Mlp.row
  rw [Ideal.addf_def]
  -- the two sums over the hidden index `k` agree term by term
  refine congrArg (· + x7 (ix1 q)) (Finset.sum_congr rfl fun k _ => ?_)
  -- hidden layer at `(e, k)`: the maximum of (first contraction plus first bias) and zero
  rw [edge_lidx16, edge_ridx16, val_main_v15_apply, val_main_v14_apply, val_main_v11_apply, val_main_v13_apply, val_main_v12_apply, edge_idx13,
    val_main_call0_v0_apply, val_main_call0_cst_apply, Ideal.maximumf_def, Ideal.addf_def, Ideal.ofBits_def, Ideal.ofBits_zero_f32]
  -- the two sums over the input index `l` agree term by term
  refine congrArg (fun s => max (s + x5 (ix1 k)) 0 * x6 (ix2 k q)) (Finset.sum_congr rfl fun l _ => ?_)
  rw [edge_lidx11, edge_ridx11]

end Cert.ReferenceIdeal.RefValue
-- ==== Proof.RefNode.lean ====
/-
  The reference's node perceptron read at one element.  The reference computes, for all 50000 node rows at
  once, `relu (z · W₃ + b₃) · W₄ + b₄`, where `z` is the array that joins, along the feature axis, the node
  features with the two aggregated arrays (448 features per node).  Reading the last stage at row `n` and column
  `q` and following the stages back — the final bias addition, the second contraction, the maximum with the zero
  array, the first bias addition, the first contraction — gives exactly one row of the two-layer perceptron
  `Cert.Mlp.row` applied to row `n` of `z`.  The joined array itself is not opened: it enters only through its
  elements at row `n`.
-/
import proofs.«130831_j7138235646189_1_alg».proof.Proof.Gen.ReferenceIdeal.Read
import proofs.«130831_j7138235646189_1_alg».proof.Proof.MlpRow
import Idealize.ShloMosaic.Lib.ValueIdx
import Idealize.ShloMosaic.PureOps.Ideal.Laws

noncomputable section

namespace Cert.ReferenceIdeal.RefValue

open scoped BigOperators
open Idealize.ShloMosaic Idealize.ShloMosaic.ValueIdx Cert.ReferenceIdeal Cert.ReferenceIdeal.Read

variable [Cert.ReferenceIdeal.Facts]

/-! ### Which operand elements each stage reads at row `n`

A contraction's result at `(n, q)` reads the left operand at `(n, k)` and the right operand at `(k, q)`; a bias
vector broadcast along the rows is read at the column alone. -/

/-- The second contraction at `(n, q)` reads its left operand at `(n, k)`. -/
theorem node_lidx45 (n : Fin 50000) (q : Fin 128) (k : Fin 256) : lidx_main_v45 (ix2 n q) k = ix2 n k := by
  funext a; match a with | ⟨0, _⟩ => rfl | ⟨1, _⟩ => rfl

/-- The second contraction at `(n, q)` reads its right operand at `(k, q)`. -/
theorem node_ridx45 (n : Fin 50000) (q : Fin 128) (k : Fin 256) : ridx_main_v45 (ix2 n q) k = ix2 k q := by
  funext a; match a with | ⟨0, _⟩ => rfl | ⟨1, _⟩ => rfl

/-- The second bias, broadcast to every row, is read at column `q`. -/
theorem node_idx47 (n : Fin 50000) (q : Fin 128) : idx_main_v46 (idx_main_v47 (ix2 n q)) = ix1 q := by
  funext a; match a with | ⟨0, _⟩ => rfl

/-- The first contraction at `(n, k)` reads its left operand at `(n, l)`. -/
theorem node_lidx40 (n : Fin 50000) (k : Fin 256) (l : Fin 448) : lidx_main_v40 (ix2 n k) l = ix2 n l := by
  funext a; match a with | ⟨0, _⟩ => rfl | ⟨1, _⟩ => rfl

/-- The first contraction at `(n, k)` reads its right operand at `(l, k)`. -/
theorem node_ridx40 (n : Fin 50000) (k : Fin 256) (l : Fin 448) : ridx_main_v40 (ix2 n k) l = ix2 l k := by
  funext a; match a with | ⟨0, _⟩ => rfl | ⟨1, _⟩ => rfl

/-- The first bias, broadcast to every row, is read at column `k`. -/
theorem node_idx42 (n : Fin 50000) (k : Fin 256) : idx_main_v41 (idx_main_v42 (ix2 n k)) = ix1 k := by
  funext a; match a with | ⟨0, _⟩ => rfl

/-- The node perceptron's output at row `n`, column `q` is the two-layer perceptron row formula applied to row
    `n` of the joined features:
    `(Σ_k max (Σ_l z_{n,l} · W₃_{l,k} + b₃_k) 0 · W₄_{k,q}) + b₄_q`. -/
theorem ref_node_apply (x0 : (⟨S50000x128, .f32⟩ : BufTy).Contents (Elt Ideal)) (x1 : (⟨S2x800000, .i32⟩ : BufTy).Contents (Elt Ideal))
    (x2 : (⟨S64x64, .f32⟩ : BufTy).Contents (Elt Ideal)) (x3 : (⟨S50000, .i32⟩ : BufTy).Contents (Elt Ideal))
    (x4 : (⟨S128x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S448x256, .f32⟩ : BufTy).Contents (Elt Ideal)) (x9 : (⟨S256, .f32⟩ : BufTy).Contents (Elt Ideal))
    (x10 : (⟨S256x128, .f32⟩ : BufTy).Contents (Elt Ideal)) (x11 : (⟨S128, .f32⟩ : BufTy).Contents (Elt Ideal)) (n : Fin 50000) (q : Fin 128) :
    val_main_v48 (F := Ideal) x0 x1 x2 x3 x4 x5 x6 x7 x8 x9 x10 x11 (ix2 n q)
      = Cert.Mlp.row (fun l : Fin 448 => val_main_v39 (F := Ideal) x0 x1 x2 x3 x4 x5 x6 x7 (ix2 n l)) (fun (l : Fin 448) (k : Fin 256) => x8 (ix2 l k)) (fun k : Fin 256 => x9 (ix1 k))
          (fun (k : Fin 256) (j : Fin 128) => x10 (ix2 k j)) (fun j : Fin 128 => x11 (ix1 j)) q := by
  -- outer layer: the output is the second contraction plus the second bias at column `q`
  rw [val_main_v48_apply, val_main_v45_apply, val_main_v47_apply, val_main_v46_apply, node_idx47]
  unfold Cert.Mlp.row
  rw [Ideal.addf_def]
  -- the two sums over the hidden index `k` agree term by term
  refine congrArg (· + x11 (ix1 q)) (Finset.sum_congr rfl fun k _ => ?_)
  -- hidden layer at `(n, k)`: the maximum of (first contraction plus first bias) and zero
  rw [node_lidx45, node_ridx45, val_main_v44_apply, val_main_v43_apply, val_main_v40_apply, val_main_v42_apply, val_main_v41_apply, node_idx42,
    val_main_call1_v0_apply, val_main_call1_cst_apply, Ideal.maximumf_def, Ideal.addf_def, Ideal.ofBits_def, Ideal.ofBits_zero_f32]
  -- the two sums over the input index `l` agree term by term
  refine congrArg (fun s => max (s + x9 (ix1 k)) 0 * x10 (ix2 k q)) (Finset.sum_congr rfl fun l _ => ?_)
  rw [node_lidx40, node_ridx40]

end Cert.ReferenceIdeal.RefValue
-- ==== Proof.LibConcat3.lean ====
/-
  Reading a host operation of three operands.  A `stablehlo.concatenate` of three arrays prints as an operation over a
  literal family of three buffers whose function takes the family as one argument; stated that way, the operands'
  contents sit under a binder (or a dependent family) where the per-operation result lemmas cannot reach them.  When
  the function takes its three operands one by one, the operation's result at its own buffer is that function of the
  three buffers' contents, each read at its own buffer (`nary3_split`), and the operands can then be read in turn by
  the ordinary result lemmas (`read_results`: the reading loop for a line of host operations whose fold is already
  open).
-/
import Idealize.ShloMosaic.Lib.StableHlo.Run

namespace Cert.LibConcat3

open Idealize.ShloMosaic Idealize.ShloMosaic.TcCoe Idealize.SL.Sem Idealize.ShloMosaic.StableHlo

variable {nD : Nat} {τ : Topo} {sig : RefSig} {Val : EltTy → Type} {x a b y : Ref sig .tc}

/-- An operation over a literal family of three buffers whose function takes its operands one by one: its result is
    that function of the three buffers' contents, each read at its own buffer. -/
theorem nary3_split (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary_result]; rfl

/-- Reads a buffer's contents after a line of host operations whose fold is already open: each operation's result at
    its own buffer is its function of its operands' contents, and at any other buffer what was there before. -/
macro "read_results" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide))))

end Cert.LibConcat3
-- ==== Proof.Bridge.lean ====
/-
  The two programs compute one function.  The reference's result, read one operation at a time, is a composition of
  stages: the gather of source-node features, the edge perceptron, the scatter-mean over destination nodes joined
  with the node's own features and its graph's global features, and the node perceptron.  The kernel's run passes
  through the same values: its first host stretch is the reference's gather, its edge launch leaves the edge
  perceptron of the gathered features (row by row the same formula, 5000 rows at a time), its second host stretch is
  the reference's scatter-mean and concatenate applied to that, and its node launch leaves the node perceptron of the
  joined features (2000 rows at a time).  No law of arithmetic is needed beyond the shared row formula: the two sides
  differ only in how the rows are grouped, so the precondition is never opened.
-/
import proofs.«130831_j7138235646189_1_alg».proof.Proof.IdealRun
import proofs.«130831_j7138235646189_1_alg».proof.Proof.IdealEdgeValue
import proofs.«130831_j7138235646189_1_alg».proof.Proof.IdealNodeValue
import proofs.«130831_j7138235646189_1_alg».proof.Proof.RefEdge
import proofs.«130831_j7138235646189_1_alg».proof.Proof.RefNode
import proofs.«130831_j7138235646189_1_alg».proof.Proof.Gen.ReferenceIdeal.Read
import proofs.«130831_j7138235646189_1_alg».proof.Proof.LibConcat3
import Idealize.ShloMosaic.Lib.StableHlo.Run

noncomputable section

namespace Cert.Bridge

open Idealize.ShloMosaic Idealize.ShloMosaic.TcCoe Idealize.ShloMosaic.ValueIdx Idealize.SL.Sem Idealize.ShloMosaic.StableHlo
open Cert.LibConcat3 (nary3_split)

/-! ## The join of the three feature groups, as a function of the edge messages -/

/-- The concatenated node features from the edge messages `h`: the node's own features, the sum of its incoming
    messages divided by their number (at least one), and its graph's global features. -/
def joined (h : (⟨Cert.ReferenceIdeal.S800000x256, .f32⟩ : BufTy).Contents (Elt Ideal)) (x0 : (⟨Cert.ReferenceIdeal.S50000x128, .f32⟩ : BufTy).Contents (Elt Ideal))
    (x1 : (⟨Cert.ReferenceIdeal.S2x800000, .i32⟩ : BufTy).Contents (Elt Ideal)) (x2 : (⟨Cert.ReferenceIdeal.S64x64, .f32⟩ : BufTy).Contents (Elt Ideal))
    (x3 : (⟨Cert.ReferenceIdeal.S50000, .i32⟩ : BufTy).Contents (Elt Ideal)) : (⟨Cert.ReferenceIdeal.S50000x448, .f32⟩ : BufTy).Contents (Elt Ideal) :=
  concatenate Cert.ReferenceIdeal.S50000x448 1 [⟨Cert.ReferenceIdeal.S50000x128, x0⟩,
    ⟨Cert.ReferenceIdeal.S50000x256, Host.divf (F := Ideal) (φ := .f32) (Host.scatterAdd (F := Ideal) (φ := .f32) Cert.ReferenceIdeal.scatter_S50000x256_S800000x1_S800000x256_1_0_0_1 (Cert.ReferenceIdeal.Read.val_main_v20 (F := Ideal)) (Cert.ReferenceIdeal.Read.val_main_v21 (F := Ideal) x1) h) (Cert.ReferenceIdeal.Read.val_main_v30 (F := Ideal) x1)⟩,
    ⟨Cert.ReferenceIdeal.S50000x64, Cert.ReferenceIdeal.Read.val_main_v38 (F := Ideal) x2 x3⟩] Cert.ReferenceIdeal.Facts₀.concatenates_S50000x128_S50000x256_S50000x64_S50000x448_d1

/-- The reference's concatenate stage is the join of its own edge messages. -/
theorem ref_joined (x0 x1 x2 x3 x4 x5 x6 x7) :
    Cert.ReferenceIdeal.Read.val_main_v39 (F := Ideal) x0 x1 x2 x3 x4 x5 x6 x7 = joined (Cert.ReferenceIdeal.Read.val_main_v19 (F := Ideal) x0 x1 x4 x5 x6 x7) x0 x1 x2 x3 := rfl

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-! ## The kernel's host stretches, read -/

/-- An argument array at the edge launch's entry is as launched. -/
theorem edgeEntry_arg (b : Ref Cert.KernelIdeal.sig .tc) (h : b ∉ Cert.KernelIdeal.Gen.hostOps0_W) :
    Cert.KernelIdeal.Run.edgeEntry m ρ c b = m ((c : Thread Cert.KernelIdeal.nD Cert.KernelIdeal.τ).loc b) := Cert.KernelIdeal.Run.edgeEntry_of m ρ c b h

/-- An array the edge launch does not stage and the first host stretch does not write is, at the launch's exit, as
    launched. -/
theorem edgeExit_arg (b : Ref Cert.KernelIdeal.sig .tc) (h0 : ∀ w, Pipeline.arrRef Cert.KernelIdeal.spec0 w ≠ b) (h : b ∉ Cert.KernelIdeal.Gen.hostOps0_W) :
    Cert.KernelIdeal.Run.atEdgeExit m ρ c (Proc.devRef .tc b) = m ((c : Thread Cert.KernelIdeal.nD Cert.KernelIdeal.τ).loc b) :=
  (Cert.KernelIdeal.Run.atEdgeExit_of_ne m ρ c b h0).trans (Cert.KernelIdeal.Run.edgeEntry_of m ρ c b h)

/-- An argument array the node launch reads is, at its entry, as launched. -/
theorem nodeEntry_arg (b : Ref Cert.KernelIdeal.sig .tc) (h1 : b ∉ Cert.KernelIdeal.Gen.hostOps1_W) (h0 : ∀ w, Pipeline.arrRef Cert.KernelIdeal.spec0 w ≠ b) (h : b ∉ Cert.KernelIdeal.Gen.hostOps0_W) :
    Cert.KernelIdeal.Run.nodeEntry m ρ c b = m ((c : Thread Cert.KernelIdeal.nD Cert.KernelIdeal.τ).loc b) :=
  (Cert.KernelIdeal.Run.nodeEntry_of m ρ c b h1).trans (edgeExit_arg m ρ c b h0 h)

/-- The first host stretch leaves the reference's gather of source-node features in the edge launch's input. -/
theorem gathered :
    Cert.KernelIdeal.Run.edgeEntry m ρ c Cert.KernelIdeal.main_v10 = Cert.ReferenceIdeal.Read.val_main_v10 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  show StableHlo.after Cert.KernelIdeal.Gen.hostOps0 (Cert.KernelIdeal.Run.atLaunch m ρ c) (Proc.devRef .tc Cert.KernelIdeal.main_v10) = _
  after_results
  rfl

/-- The destination-node column of the edge list, as the second host stretch finds it. -/
theorem destinations :
    Cert.KernelIdeal.Run.atEdgeExit m ρ c (Proc.devRef .tc Cert.KernelIdeal.main_v3) = Cert.ReferenceIdeal.Read.val_main_v3 (F := Ideal) (m ((c : Thread Cert.KernelIdeal.nD Cert.KernelIdeal.τ).loc Cert.KernelIdeal.main_arg1)) := by
  refine (Cert.KernelIdeal.Run.atEdgeExit_of_ne m ρ c Cert.KernelIdeal.main_v3 (by decide)).trans ?_
  show StableHlo.after Cert.KernelIdeal.Gen.hostOps0 (Cert.KernelIdeal.Run.atLaunch m ρ c) (Proc.devRef .tc Cert.KernelIdeal.main_v3) = _
  after_results
  rfl

set_option maxHeartbeats 2000000 in
/-- The second host stretch leaves, in the node launch's input, the join of whatever the edge launch left. -/
theorem joined_entry :
    Cert.KernelIdeal.Run.nodeEntry m ρ c Cert.KernelIdeal.main_v31
      = joined (Cert.KernelIdeal.Run.atEdgeExit m ρ c (Proc.devRef .tc Cert.KernelIdeal.main_v11)) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) := by
  show StableHlo.after Cert.KernelIdeal.Gen.hostOps1 (Cert.KernelIdeal.Run.atEdgeExit m ρ c) (Proc.devRef .tc Cert.KernelIdeal.main_v31) = _
  simp only [after_cons, after_nil]
  refine (nary3_split (τ := Cert.KernelIdeal.τ) (Val := Elt Ideal) (x := Cert.KernelIdeal.main_arg0) (a := Cert.KernelIdeal.main_v23) (b := Cert.KernelIdeal.main_v30) (y := Cert.KernelIdeal.main_v31)
    (fun p q r => concatenate Cert.KernelIdeal.S50000x448 1 [⟨Cert.KernelIdeal.S50000x128, p⟩, ⟨Cert.KernelIdeal.S50000x256, q⟩, ⟨Cert.KernelIdeal.S50000x64, r⟩]
      Cert.KernelIdeal.Gen.concatenates_S50000x128_S50000x256_S50000x64_S50000x448_d1) _ _ _).trans ?_
  read_results
  rw [destinations m ρ c, edgeExit_arg m ρ c Cert.KernelIdeal.main_arg0 (by decide) (by decide), edgeExit_arg m ρ c Cert.KernelIdeal.main_arg2 (by decide) (by decide),
    edgeExit_arg m ρ c Cert.KernelIdeal.main_arg3 (by decide) (by decide)]
  rfl

/-! ## The launches' outputs are the reference's stages -/

/-- The edge perceptron of the gathered features, row by row, is the reference's edge-message stage. -/
theorem messages_eq (x0 x1 x4 x5 x6 x7) :
    Cert.KernelIdeal.EdgeValue.messages (Cert.ReferenceIdeal.Read.val_main_v10 (F := Ideal) x0 x1) x4 x5 x6 x7 = Cert.ReferenceIdeal.Read.val_main_v19 (F := Ideal) x0 x1 x4 x5 x6 x7 := by
  funext i
  obtain ⟨e, q, rfl⟩ : ∃ (e : Fin 800000) (q : Fin 256), i = ix2 e q := ⟨i 0, i 1, eq_ix2 i⟩
  rw [Cert.KernelIdeal.EdgeValue.messages_apply]
  exact (Cert.ReferenceIdeal.RefValue.ref_edge_apply x0 x1 x4 x5 x6 x7 e q).symm

/-- The node perceptron of the joined features, row by row, is the reference's result stage. -/
theorem updated_eq (x0 x1 x2 x3 x4 x5 x6 x7 x8 x9 x10 x11) :
    Cert.KernelIdeal.NodeValue.updated (joined (Cert.ReferenceIdeal.Read.val_main_v19 (F := Ideal) x0 x1 x4 x5 x6 x7) x0 x1 x2 x3) x8 x9 x10 x11
      = Cert.ReferenceIdeal.Read.val_main_v48 (F := Ideal) x0 x1 x2 x3 x4 x5 x6 x7 x8 x9 x10 x11 := by
  funext i
  obtain ⟨n, q, rfl⟩ : ∃ (n : Fin 50000) (q : Fin 128), i = ix2 n q := ⟨i 0, i 1, eq_ix2 i⟩
  rw [Cert.KernelIdeal.NodeValue.updated_apply, ← ref_joined x0 x1 x2 x3 x4 x5 x6 x7]
  exact (Cert.ReferenceIdeal.RefValue.ref_node_apply x0 x1 x2 x3 x4 x5 x6 x7 x8 x9 x10 x11 n q).symm

/-- What the edge launch leaves in its output array: the reference's edge messages of the launch memory. -/
theorem edge_output :
    Cert.KernelIdeal.Run.atEdgeExit m ρ c (Proc.devRef .tc Cert.KernelIdeal.main_v11)
      = Cert.ReferenceIdeal.Read.val_main_v19 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  refine (Cert.KernelIdeal.Run.atEdgeExit_arr m ρ c 5).trans ?_
  rw [Cert.KernelIdeal.EdgeValue.result (Cert.KernelIdeal.Run.edgeEntry m ρ) c, gathered m ρ c, edgeEntry_arg m ρ c Cert.KernelIdeal.main_arg4 (by decide), edgeEntry_arg m ρ c Cert.KernelIdeal.main_arg5 (by decide),
    edgeEntry_arg m ρ c Cert.KernelIdeal.main_arg6 (by decide), edgeEntry_arg m ρ c Cert.KernelIdeal.main_arg7 (by decide)]
  exact messages_eq _ _ _ _ _ _

/-- THE KERNEL'S RESULT: after the run the result array holds the reference's result stage of the launch memory. -/
theorem kernel_result :
    Cert.KernelIdeal.Run.atNodeExit m ρ c (Proc.devRef .tc Cert.KernelIdeal.main_v32)
      = Cert.ReferenceIdeal.Read.val_main_v48 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) := by
  refine (Cert.KernelIdeal.Run.result_at_exit m ρ c).trans ?_
  rw [Cert.KernelIdeal.NodeValue.result (Cert.KernelIdeal.Run.nodeEntry m ρ) c, joined_entry m ρ c, edge_output m ρ c,
    nodeEntry_arg m ρ c Cert.KernelIdeal.main_arg8 (by decide) (by decide) (by decide), nodeEntry_arg m ρ c Cert.KernelIdeal.main_arg9 (by decide) (by decide) (by decide),
    nodeEntry_arg m ρ c Cert.KernelIdeal.main_arg10 (by decide) (by decide) (by decide), nodeEntry_arg m ρ c Cert.KernelIdeal.main_arg11 (by decide) (by decide) (by decide)]
  exact updated_eq _ _ _ _ _ _ _ _ _ _ _ _

end Cert.Bridge

end
-- ==== Proof.lean ====
/-
  The certificate of a two-stage graph network layer against its jnp reference.

  Both programs gather each edge's source-node features, pass them through an edge perceptron
  relu(x·W₁ + b₁)·W₂ + b₂, average the resulting messages over each destination node (the sum divided by the
  number of incoming edges, at least one), join that with the node's own features and its graph's global features,
  and pass the join through a node perceptron relu(z·W₃ + b₃)·W₄ + b₄.  The kernel runs each perceptron as a
  pallas_call over blocks of rows (5000 edges, 2000 nodes at a time) with operands rounded to bf16 on the way into
  each product; the reference runs each as whole-array products.  Over the extended reals rounding is the identity
  and a product accumulated into zero is the plain sum, so every output row is the same formula on both sides, and
  the host operations between the perceptrons are the same operations applied to the same values.

  * The frames: each program terminates without a fault and leaves its argument arrays as launched.  For the two
    kernel programs this is the run of their four segments (host stretch, edge launch, host stretch, node launch),
    stated once for any float instance; for the reference it is its run read back.
  * The idealization rewrote nothing, so there is nothing to preserve.
  * The algebraic claim: the kernel's result array ends at the reference's result stage of the launch memory, and the
    reference's own run ends there too; the memories agree on the arguments.  The precondition is not used.
-/
import proofs.«130831_j7138235646189_1_alg».proof.Defs
import proofs.«130831_j7138235646189_1_alg».proof.Proof.Gen.Kernel
import proofs.«130831_j7138235646189_1_alg».proof.Proof.Gen.KernelIdeal
import proofs.«130831_j7138235646189_1_alg».proof.Proof.Gen.ReferenceIdeal
import proofs.«130831_j7138235646189_1_alg».proof.Proof.Gen.ReferenceIdeal.Run
import proofs.«130831_j7138235646189_1_alg».proof.Proof.Gen.ReferenceIdeal.Read
import proofs.«130831_j7138235646189_1_alg».proof.Proof.Gen.Pre_finite_inputs
import proofs.«130831_j7138235646189_1_alg».proof.Proof.BitsRun
import proofs.«130831_j7138235646189_1_alg».proof.Proof.IdealRun
import proofs.«130831_j7138235646189_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs to the end and leaves its arguments as launched. -/
theorem frame_kernel : Cert.frame_Kernel := fun m ρ _ => Cert.Kernel.Run.frame m ρ

/-- The idealized kernel runs to the end and leaves its arguments as launched. -/
theorem frame_kernel_ideal : Cert.frame_KernelIdeal := fun m ρ _ => Cert.KernelIdeal.Run.frame m ρ

/-- The idealized reference runs to the end and leaves its arguments as launched: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end with the reference's result stage of the (shared) argument arrays in
    their result array, the arguments unchanged. -/
theorem algebraic : Cert.algebraic_KernelIdeal_ReferenceIdeal := by
  intro m ρ m' ρ' _ hagree
  refine ⟨fun c => Cert.KernelIdeal.Run.atNodeExit m ρ c (Proc.devRef .tc Cert.KernelIdeal.main_v32), ?_, ?_⟩
  · exact (θ_run Cert.KernelIdeal.defs _ _).mono (fun _ h c =>
      ⟨h c _ (Cert.KernelIdeal.Run.mem_uc Cert.KernelIdeal.main_v32 (by decide)),
       (h c _ (Cert.KernelIdeal.Run.mem_uc Cert.KernelIdeal.main_arg0 (by decide))).trans (Cert.KernelIdeal.Run.exit_main_arg0 m ρ c),
       (h c _ (Cert.KernelIdeal.Run.mem_uc Cert.KernelIdeal.main_arg1 (by decide))).trans (Cert.KernelIdeal.Run.exit_main_arg1 m ρ c),
       (h c _ (Cert.KernelIdeal.Run.mem_uc Cert.KernelIdeal.main_arg2 (by decide))).trans (Cert.KernelIdeal.Run.exit_main_arg2 m ρ c),
       (h c _ (Cert.KernelIdeal.Run.mem_uc Cert.KernelIdeal.main_arg3 (by decide))).trans (Cert.KernelIdeal.Run.exit_main_arg3 m ρ c),
       (h c _ (Cert.KernelIdeal.Run.mem_uc Cert.KernelIdeal.main_arg4 (by decide))).trans (Cert.KernelIdeal.Run.exit_main_arg4 m ρ c),
       (h c _ (Cert.KernelIdeal.Run.mem_uc Cert.KernelIdeal.main_arg5 (by decide))).trans (Cert.KernelIdeal.Run.exit_main_arg5 m ρ c),
       (h c _ (Cert.KernelIdeal.Run.mem_uc Cert.KernelIdeal.main_arg6 (by decide))).trans (Cert.KernelIdeal.Run.exit_main_arg6 m ρ c),
       (h c _ (Cert.KernelIdeal.Run.mem_uc Cert.KernelIdeal.main_arg7 (by decide))).trans (Cert.KernelIdeal.Run.exit_main_arg7 m ρ c),
       (h c _ (Cert.KernelIdeal.Run.mem_uc Cert.KernelIdeal.main_arg8 (by decide))).trans (Cert.KernelIdeal.Run.exit_main_arg8 m ρ c),
       (h c _ (Cert.KernelIdeal.Run.mem_uc Cert.KernelIdeal.main_arg9 (by decide))).trans (Cert.KernelIdeal.Run.exit_main_arg9 m ρ c),
       (h c _ (Cert.KernelIdeal.Run.mem_uc Cert.KernelIdeal.main_arg10 (by decide))).trans (Cert.KernelIdeal.Run.exit_main_arg10 m ρ c),
       (h c _ (Cert.KernelIdeal.Run.mem_uc Cert.KernelIdeal.main_arg11 (by decide))).trans (Cert.KernelIdeal.Run.exit_main_arg11 m ρ c)⟩) (Cert.KernelIdeal.Run.run_all m ρ)
  · refine (θ_run Cert.ReferenceIdeal.defs _ _).mono (fun _ h c => ⟨?_, (h c).2⟩) (Cert.ReferenceIdeal.Value.run (F := Ideal) m' ρ')
    obtain ⟨a0, a1, a2, a3, a4, a5, a6, a7, a8, a9, a10, a11⟩ := hagree c
    refine ((h c).1.trans (Cert.ReferenceIdeal.Read.val_main_v48_eq (F := Ideal) _ _ _ _ _ _ _ _ _ _ _ _)).trans ?_
    rw [a0, a1, a2, a3, a4, a5, a6, a7, a8, a9, a10, a11]
    exact (Cert.Bridge.kernel_result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
